-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x3200000 : Shape := ⟨2, ![2, 3200000]⟩
abbrev S200000 : Shape := ⟨1, ![200000]⟩
abbrev S3200000 : Shape := ⟨1, ![3200000]⟩
abbrev S1x16 : Shape := ⟨2, ![1, 16]⟩
abbrev S2x16x16 : Shape := ⟨3, ![2, 16, 16]⟩
abbrev S3x16 : Shape := ⟨2, ![3, 16]⟩
abbrev S3x16x16 : Shape := ⟨3, ![3, 16, 16]⟩
abbrev S16x16 : Shape := ⟨2, ![16, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1x16 : S_.BroadcastsInDim S1x16 (![] : Fin 0 → Fin S1x16.rank)
  reducesTo_S1x16_S_d0_1 : S1x16.ReducesTo [0, 1] S_
  bcast_S_S2x16x16 : S_.BroadcastsInDim S2x16x16 (![] : Fin 0 → Fin S2x16x16.rank)
  reducesTo_S2x16x16_S_d0_1_2 : S2x16x16.ReducesTo [0, 1, 2] S_
  bcast_S_S3x16 : S_.BroadcastsInDim S3x16 (![] : Fin 0 → Fin S3x16.rank)
  reducesTo_S3x16_S_d0_1 : S3x16.ReducesTo [0, 1] S_
  bcast_S_S3x16x16 : S_.BroadcastsInDim S3x16x16 (![] : Fin 0 → Fin S3x16x16.rank)
  reducesTo_S3x16x16_S_d0_1_2 : S3x16x16.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S16x1 .f32) (main_arg14 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x1 .f32 := Host.absf main_arg13
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S16x16 .f32) (main_arg10 : FVec F S16 .f32) (main_arg11 : FVec F S16x16 .f32) (main_arg12 : FVec F S16 .f32) (main_arg13 : FVec F S16x1 .f32) (main_arg14 : FVec F S1 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg11
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_v48 main_v49 main_v50

def fn_part1 {F : FTy → Type} [FloatOps F] (main_arg6 : FVec F S3x16 .f32) (main_arg7 : FVec F S3x16x16 .f32) (main_arg8 : FVec F S3x16 .f32) (main_arg9 : FVec F S16x16 .f32) (main_arg10 : FVec F S16 .f32) (main_arg11 : FVec F S16x16 .f32) (main_arg12 : FVec F S16 .f32) (main_arg13 : FVec F S16x1 .f32) (main_arg14 : FVec F S1 .f32) (main_v13 : IVec S_ 1) (main_v16 : IVec S2x16x16 1) : IVec S_ 1 :=
  let main_c_5 : IVec S_ 1 := constantI S_ 1 1#1
  let main_v17 : IVec S_ 1 := (fun x v => Host.reduce IntOp.andi x v reducesTo_S2x16x16_S_d0_1_2 h_S_) main_v16 main_c_5
  let main_v18 : IVec S_ 1 := andi main_v13 main_v17
  let main_v19 : FVec F S3x16 .f32 := Host.absf main_arg6
  let main_cst_6 : FVec F S_ .f32 := constant S_ .f32 0x7F800000#32
  let main_v20 : FVec F S3x16 .f32 := broadcastInDim S3x16 ![] bcast_S_S3x16 main_cst_6
  let main_v21 : IVec S3x16 1 := cmpf .olt main_v19 main_v20
  let main_c_7 : IVec S_ 1 := constantI S_ 1 1#1
  let main_v22 : IVec S_ 1 := (fun x v => Host.reduce IntOp.andi x v reducesTo_S3x16_S_d0_1 h_S_) main_v21 main_c_7
  let main_v23 : IVec S_ 1 := andi main_v18 main_v22
  let main_v24 : FVec F S3x16x16 .f32 := Host.absf main_arg7
  let main_cst_8 : FVec F S_ .f32 := constant S_ .f32 0x7F800000#32
  let main_v25 : FVec F S3x16x16 .f32 := broadcastInDim S3x16x16 ![] bcast_S_S3x16x16 main_cst_8
  let main_v26 : IVec S3x16x16 1 := cmpf .olt main_v24 main_v25
  let main_c_9 : IVec S_ 1 := constantI S_ 1 1#1
  let main_v27 : IVec S_ 1 := (fun x v => Host.reduce IntOp.andi x v reducesTo_S3x16x16_S_d0_1_2 h_S_) main_v26 main_c_9
  let main_v28 : IVec S_ 1 := andi main_v23 main_v27
  let main_v29 : FVec F S3x16 .f32 := Host.absf main_arg8
  let main_cst_10 : FVec F S_ .f32 := constant S_ .f32 0x7F800000#32
  let main_v30 : FVec F S3x16 .f32 := broadcastInDim S3x16 ![] bcast_S_S3x16 main_cst_10
  let main_v31 : IVec S3x16 1 := cmpf .olt main_v29 main_v30
  let main_c_11 : IVec S_ 1 := constantI S_ 1 1#1
  let main_v32 : IVec S_ 1 := (fun x v => Host.reduce IntOp.andi x v reducesTo_S3x16_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S200000x1 .f32) (main_arg1 : IVec S2x3200000 32) (main_arg2 : IVec S200000 32) (main_arg3 : FVec F S3200000 .f32) (main_arg4 : FVec F S1x16 .f32) (main_arg5 : FVec F S2x16x16 .f32) (main_arg6 : FVec F S3x16 .f32) (main_arg7 : FVec F S3x16x16 .f32) (main_arg8 : FVec F S3x16 .f32) (main_arg9 : FVec F S16x16 .f32) (main_arg10 : FVec F S16 .f32) (main_arg11 : FVec F S16x16 .f32) (main_arg12 : FVec F S16 .f32) (main_arg13 : FVec F S16x1 .f32) (main_arg14 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S1x16 .f32 := Host.absf main_arg4
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S2x16x16 .f32 := Host.absf main_arg5
  let main_cst_4 : FVec F S_ .f32 := constant S_ .f32 0x7F800000#32
  let main_v15 : FVec F S2x16x16 .f32 := broadcastInDim S2x16x16 ![] bcast_S_S2x16x16 main_cst_4
  let main_v16 : IVec S2x16x16 1 := cmpf .olt main_v14 main_v15
  fn_part1 (F := F) main_arg6 main_arg7 main_arg8 main_arg9 main_arg10 main_arg11 main_arg12 main_arg13 main_arg14 main_v13 main_v16
-- ==== Kernel.lean ====
abbrev S200000x1 : Shape := ⟨2, ![200000, 1]⟩
abbrev S2x3200000 : Shape := ⟨2, ![2, 3200000]⟩
abbrev S200000 : Shape := ⟨1, ![200000]⟩
abbrev S3200000 : Shape := ⟨1, ![3200000]⟩
abbrev S1x16 : Shape := ⟨2, ![1, 16]⟩
abbrev S2x16x16 : Shape := ⟨3, ![2, 16, 16]⟩
abbrev S3x16 : Shape := ⟨2, ![3, 16]⟩
abbrev S3x16x16 : Shape := ⟨3, ![3, 16, 16]⟩
abbrev S16x16 : Shape := ⟨2, ![16, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S200000x16 : Shape := ⟨2, ![200000, 16]⟩
abbrev S2000x1 : Shape := ⟨2, ![2000, 1]⟩
abbrev S2000x16 : Shape := ⟨2, ![2000, 16]⟩
abbrev S3200000x16 : Shape := ⟨2, ![3200000, 16]⟩
abbrev S1x16x16 : Shape := ⟨3, ![1, 16, 16]⟩
abbrev S1024x16 : Shape := ⟨2, ![1024, 16]⟩
abbrev S1x1 : Shape := ⟨2, ![1, 1]⟩
abbrev S1024x1 : Shape := ⟨2, ![1024, 1]⟩

abbrev nBuf : Space → Nat
  | .hbm => 154
  | .vmem => 68
  | .smem => 0
  | _ => 0

abbrev hbmTy0_0 (i : Nat) : BufTy := match i % 128 with
  | 0 => ⟨S200000x1, .f32⟩
  | 1 => ⟨S2x3200000, .i32⟩
  | 2 => ⟨S200000, .i32⟩
  | 3 => ⟨S3200000, .f32⟩
  | 4 => ⟨S1x16, .f32⟩
  | 5 => ⟨S2x16x16, .f32⟩
  | 6 => ⟨S3x16, .f32⟩
  | 7 => ⟨S3x16x16, .f32⟩
  | 8 => ⟨S3x16, .f32⟩
  | 9 => ⟨S16x16, .f32⟩
  | 10 => ⟨S16, .f32⟩
  | 11 => ⟨S16x16, .f32⟩
  | 12 => ⟨S16, .f32⟩
  | 13 => ⟨S16x1, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S200000, .f32⟩
  | 21 => ⟨S3200000x1, .i32⟩
  | 22 => ⟨S200000, .f32⟩
  | 23 => ⟨S_, .f32⟩
  | 24 => ⟨S200000, .f32⟩
  | 25 => ⟨S200000, .f32⟩
  | 26 => ⟨S200000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S200000, .f32⟩
  | 48 => ⟨S200000x1, .f32⟩
  | 49 => ⟨S200000x16, .f32⟩
  | 50 => ⟨S3200000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x16, .f32⟩
  | 60 => ⟨S3200000x16, .f32⟩
  | 61 => ⟨S3200000x16, .f32⟩
  | 62 => ⟨S_, .f32⟩
  | 63 => ⟨S200000x16, .f32⟩
  | 64 => ⟨S3200000x1, .i32⟩
  | 65 => ⟨S200000x16, .f32⟩
  | 66 => ⟨S1x16, .f32⟩
  | 67 => ⟨S16, .f32⟩
  | 68 => ⟨S1x16x16, .f32⟩
  | 69 => ⟨S16x16, .f32⟩
  | 70 => ⟨S1x16, .f32⟩
  | 71 => ⟨S16, .f32⟩
  | 72 => ⟨S1x16, .f32⟩
  | 73 => ⟨S1x16, .f32⟩
  | 74 => ⟨S200000x16, .f32⟩
  | 75 => ⟨S1x16x16, .f32⟩
  | 76 => ⟨S16x16, .f32⟩
  | 77 => ⟨S200000x16, .f32⟩
  | 78 => ⟨S3200000x1, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x16, .f32⟩
  | 88 => ⟨S3200000x16, .f32⟩
  | 89 => ⟨S3200000x16, .f32⟩
  | 90 => ⟨S_, .f32⟩
  | 91 => ⟨S200000x16, .f32⟩
  | 92 => ⟨S3200000x1, .i32⟩
  | 93 => ⟨S200000x16, .f32⟩
  | 94 => ⟨S1x16, .f32⟩
  | 95 => ⟨S16, .f32⟩
  | 96 => ⟨S1x16x16, .f32⟩
  | 97 => ⟨S16x16, .f32⟩
  | 98 => ⟨S1x16, .f32⟩
  | 99 => ⟨S16, .f32⟩
  | 100 => ⟨S1x16, .f32⟩
  | 101 => ⟨S1x16, .f32⟩
  | 102 => ⟨S200000x16, .f32⟩
  | 103 => ⟨S1x16x16, .f32⟩
  | 104 => ⟨S16x16, .f32⟩
  | 105 => ⟨S200000x16, .f32⟩
  | 106 => ⟨S3200000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x16, .f32⟩
  | 116 => ⟨S3200000x16, .f32⟩
  | 117 => ⟨S3200000x16, .f32⟩
  | 118 => ⟨S_, .f32⟩
  | 119 => ⟨S200000x16, .f32⟩
  | 120 => ⟨S3200000x1, .i32⟩
  | 121 => ⟨S200000x16, .f32⟩
  | 122 => ⟨S1x16, .f32⟩
  | 123 => ⟨S16, .f32⟩
  | 124 => ⟨S1x16x16, .f32⟩
  | 125 => ⟨S16x16, .f32⟩
  | 126 => ⟨S1x16, .f32⟩
  | 127 => ⟨S16, .f32⟩
  | _ => ⟨S200000x1, .f32⟩

abbrev hbmTy0_1 (i : Nat) : BufTy := match i % 128 with
  | 0 => ⟨S1x16, .f32⟩
  | 1 => ⟨S1x16, .f32⟩
  | 2 => ⟨S200000x16, .f32⟩
  | 3 => ⟨S200000x16, .f32⟩
  | 4 => ⟨S_, .f32⟩
  | 5 => ⟨S1024x16, .f32⟩
  | 6 => ⟨S200000x1, .i32⟩
  | 7 => ⟨S1024x16, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000x16, .f32⟩
  | 17 => ⟨S200000x16, .f32⟩
  | 18 => ⟨S_, .f32⟩
  | 19 => ⟨S1024x16, .f32⟩
  | 20 => ⟨S200000x1, .i32⟩
  | 21 => ⟨S1024x16, .f32⟩
  | 22 => ⟨S1x16, .f32⟩
  | 23 => ⟨S1x16, .f32⟩
  | 24 => ⟨S1x1, .f32⟩
  | 25 => ⟨S1024x1, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S1x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x1, .f32⟩
  | .local _ .vmem, ⟨8, _⟩ => ⟨S2000x1, .f32⟩
  | .local _ .vmem, ⟨9, _⟩ => ⟨S2000x16, .f32⟩
  | .local _ .vmem, ⟨10, _⟩ => ⟨S2000x16, .f32⟩
  | .local _ .vmem, ⟨11, _⟩ => ⟨S1x16, .f32⟩
  | .local _ .vmem, ⟨12, _⟩ => ⟨S16x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S16x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S2000x16, .f32⟩
  | .local _ .vmem, ⟨26, _⟩ => ⟨S2000x16, .f32⟩
  | .local _ .vmem, ⟨27, _⟩ => ⟨S1x16, .f32⟩
  | .local _ .vmem, ⟨28, _⟩ => ⟨S16x16, .f32⟩
  | .local _ .vmem, ⟨29, _⟩ => ⟨S1x16, .f32⟩
  | .local _ .vmem, ⟨30, _⟩ => ⟨S2000x16, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S16x16, .f32⟩
  | .local _ .vmem, ⟨35, _⟩ => ⟨S2000x16, .f32⟩
  | .local _ .vmem, ⟨36, _⟩ => ⟨S2000x16, .f32⟩
  | .local _ .vmem, ⟨37, _⟩ => ⟨S2000x16, .f32⟩
  | .local _ .vmem, ⟨38, _⟩ => ⟨S2000x16, .f32⟩
  | .local _ .vmem, ⟨39, _⟩ => ⟨S2000x1, .f32⟩
  | .local _ .vmem, ⟨40, _⟩ => ⟨S2000x1, .f32⟩
  | .local _ .vmem, ⟨41, _⟩ => ⟨S2000x16, .f32⟩
  | .local _ .vmem, ⟨42, _⟩ => ⟨S2000x16, .f32⟩
  | .local _ .vmem, ⟨43, _⟩ => ⟨S1x16, .f32⟩
  | .local _ .vmem, ⟨44, _⟩ => ⟨S16x16, .f32⟩
  | .local _ .vmem, ⟨45, _⟩ => ⟨S1x16, .f32⟩
  | .local _ .vmem, ⟨46, _⟩ => ⟨S2000x16, .f32⟩
  | .local _ .vmem, ⟨47, _⟩ => ⟨S2000x16, .f32⟩
  | .local _ .vmem, ⟨48, _⟩ => ⟨S2000x16, .f32⟩
  | .local _ .vmem, ⟨49, _⟩ => ⟨S2000x16, .f32⟩
  | .local _ .vmem, ⟨50, _⟩ => ⟨S2000x16, .f32⟩
  | .local _ .vmem, ⟨51, _⟩ => ⟨S2000x16, .f32⟩
  | .local _ .vmem, ⟨52, _⟩ => ⟨S2000x16, .f32⟩
  | .local _ .vmem, ⟨53, _⟩ => ⟨S2000x16, .f32⟩
  | .local _ .vmem, ⟨54, _⟩ => ⟨S2000x16, .f32⟩
  | .local _ .vmem, ⟨55, _⟩ => ⟨S2000x16, .f32⟩
  | .local _ .vmem, ⟨56, _⟩ => ⟨S2000x16, .f32⟩
  | .local _ .vmem, ⟨57, _⟩ => ⟨S2000x16, .f32⟩
  | .local _ .vmem, ⟨58, _⟩ => ⟨S2000x16, .f32⟩
  | .local _ .vmem, ⟨59, _⟩ => ⟨S2000x16, .f32⟩
  | .local _ .vmem, ⟨60, _⟩ => ⟨S1024x16, .f32⟩
  | .local _ .vmem, ⟨61, _⟩ => ⟨S16x16, .f32⟩
  | .local _ .vmem, ⟨62, _⟩ => ⟨S1x16, .f32⟩
  | .local _ .vmem, ⟨63, _⟩ => ⟨S16x16, .f32⟩
  | .local _ .vmem, ⟨64, _⟩ => ⟨S1x16, .f32⟩
  | .local _ .vmem, ⟨65, _⟩ => ⟨S16x1, .f32⟩
  | .local _ .vmem, ⟨66, _⟩ => ⟨S1x1, .f32⟩
  | .local _ .vmem, ⟨67, _⟩ => ⟨S1024x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_c_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_10 : Ref sig .tc := ⟨.hbm, 107, rfl⟩
abbrev main_v80 : Ref sig .tc := ⟨.hbm, 108, rfl⟩
abbrev main_v81 : Ref sig .tc := ⟨.hbm, 109, rfl⟩
abbrev main_c_11 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_13 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_14 : Ref sig .tc := ⟨.hbm, 136, rfl⟩
abbrev main_v105 : Ref sig .tc := ⟨.hbm, 137, rfl⟩
abbrev main_v106 : Ref sig .tc := ⟨.hbm, 138, rfl⟩
abbrev main_c_15 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_16 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc8_stg0_0 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg5_0 : Ref sig .tc := ⟨.vmem, 65, rfl⟩
abbrev cc8_stg6_0 : Ref sig .tc := ⟨.vmem, 66, rfl⟩
abbrev cc8_stg7_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc8_sem6_0 : DmaSem sig := 66
abbrev cc8_sem7_0 : DmaSem sig := 67

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x16 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x16 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S16x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S16x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1024x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S200000 : S_.BroadcastsInDim S200000 (![] : Fin 0 → Fin S200000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S200000_S200000x1_0 : S200000.BroadcastsInDim S200000x1 (![0] : Fin 1 → Fin S200000x1.rank)
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S200000x16 : S_.BroadcastsInDim S200000x16 (![] : Fin 0 → Fin S200000x16.rank)
  slices_S3x16_S1x16_0_0 : S3x16.Slices ![0, 0] S1x16
  shapeCasts_S1x16_S16 : S1x16.ShapeCasts S16
  slices_S3x16x16_S1x16x16_0_0_0 : S3x16x16.Slices ![0, 0, 0] S1x16x16
  shapeCasts_S1x16x16_S16x16 : S1x16x16.ShapeCasts S16x16
  shapeCasts_S16_S1x16 : S16.ShapeCasts S1x16
  shapeCasts_S2000x16_S2000x16 : S2000x16.ShapeCasts S2000x16
  shapeCasts_S2000x1_S2000x1 : S2000x1.ShapeCasts S2000x1
  broadcasts_S2000x1_S2000x16 : S2000x1.Broadcasts S2000x16
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  slices_S2x16x16_S1x16x16_0_0_0 : S2x16x16.Slices ![0, 0, 0] S1x16x16
  slices_S3x16_S1x16_1_0 : S3x16.Slices ![1, 0] S1x16
  slices_S3x16x16_S1x16x16_1_0_0 : S3x16x16.Slices ![1, 0, 0] S1x16x16
  slices_S2x16x16_S1x16x16_1_0_0 : S2x16x16.Slices ![1, 0, 0] S1x16x16
  slices_S3x16_S1x16_2_0 : S3x16.Slices ![2, 0] S1x16
  slices_S3x16x16_S1x16x16_2_0_0 : S3x16x16.Slices ![2, 0, 0] S1x16x16
  bcast_S_S1024x16 : S_.BroadcastsInDim S1024x16 (![] : Fin 0 → Fin S1024x16.rank)
  shapeCasts_S1_S1x1 : S1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  broadcasts_S1x16_S1024x16 : S1x16.Broadcasts S1024x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S2000x1_S1x16_S2000x16_1_0_0_1_n_n_wf : DotDims.WF S2000x1 S1x16 S2000x16 [1] [0] [0] [1] [] []
  gather_S200000x16_S3200000x1_S3200000x16_1_0_n_n_0_1_116_wf : GatherDims.WF S200000x16 S3200000x1 S3200000x16 [1] [0] [] [0] [] 1 ![1, 16]
  scatter_S200000x16_S3200000x1_S3200000x16_1_0_0_1_wf : ScatterDims.WF S200000x16 S3200000x1 S3200000x16 [1] [0] [0] 1
  dot_S2000x16_S16x16_S2000x16_1_0_0_1_n_n_wf : DotDims.WF S2000x16 S16x16 S2000x16 [1] [0] [0] [1] [] []
  scatter_S1024x16_S200000x1_S200000x16_1_0_0_1_wf : ScatterDims.WF S1024x16 S200000x1 S200000x16 [1] [0] [0] 1
  gather_S1024x16_S200000x1_S200000x16_1_0_n_n_0_1_116_wf : GatherDims.WF S1024x16 S200000x1 S200000x16 [1] [0] [] [0] [] 1 ![1, 16]
  dot_S1024x16_S16x16_S1024x16_1_0_0_1_n_n_wf : DotDims.WF S1024x16 S16x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S200000x1.size a
  hwx0_0 : ∀ i : grid0.Coords, EltTy.bits .f32 = 32 ∨ (Rect.block (s := S200000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S200000x16.size a
  hwx0_2 : ∀ i : grid0.Coords, EltTy.bits .f32 = 32 ∨ (Rect.block (s := S200000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S200000x16.size a
  hwx1_0 : ∀ i : grid1.Coords, EltTy.bits .f32 = 32 ∨ (Rect.block (s := S200000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S200000x1.size a
  hwx1_1 : ∀ i : grid1.Coords, EltTy.bits .f32 = 32 ∨ (Rect.block (s := S200000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S200000x16.size a
  hwx1_2 : ∀ i : grid1.Coords, EltTy.bits .f32 = 32 ∨ (Rect.block (s := S200000x16) S2000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x16.size a ≤ S200000x16.size a
  hwx1_6 : ∀ i : grid1.Coords, EltTy.bits .f32 = 32 ∨ (Rect.block (s := S200000x16) S2000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S200000x16.size a
  hwx2_0 : ∀ i : grid2.Coords, EltTy.bits .f32 = 32 ∨ (Rect.block (s := S200000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S200000x16.size a
  hwx2_2 : ∀ i : grid2.Coords, EltTy.bits .f32 = 32 ∨ (Rect.block (s := S200000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S200000x16.size a
  hwx3_0 : ∀ i : grid3.Coords, EltTy.bits .f32 = 32 ∨ (Rect.block (s := S200000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S200000x1.size a
  hwx3_1 : ∀ i : grid3.Coords, EltTy.bits .f32 = 32 ∨ (Rect.block (s := S200000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S200000x16.size a
  hwx3_2 : ∀ i : grid3.Coords, EltTy.bits .f32 = 32 ∨ (Rect.block (s := S200000x16) S2000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x16.size a ≤ S200000x16.size a
  hwx3_6 : ∀ i : grid3.Coords, EltTy.bits .f32 = 32 ∨ (Rect.block (s := S200000x16) S2000x16.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S200000x16.size a
  hwx4_0 : ∀ i : grid4.Coords, EltTy.bits .f32 = 32 ∨ (Rect.block (s := S200000x16) S2000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S200000x16.size a
  hwx4_2 : ∀ i : grid4.Coords, EltTy.bits .f32 = 32 ∨ (Rect.block (s := S200000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S200000x16.size a
  hwx5_0 : ∀ i : grid5.Coords, EltTy.bits .f32 = 32 ∨ (Rect.block (s := S200000x16) S2000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S200000x1.size a
  hwx5_1 : ∀ i : grid5.Coords, EltTy.bits .f32 = 32 ∨ (Rect.block (s := S200000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x16.size a ≤ S200000x16.size a
  hwx5_2 : ∀ i : grid5.Coords, EltTy.bits .f32 = 32 ∨ (Rect.block (s := S200000x16) S2000x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x16.size a ≤ S16x16.size a
  hwx5_4 : ∀ i : grid5.Coords, EltTy.bits .f32 = 32 ∨ (Rect.block (s := S16x16) S16x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x16.size a ≤ S1x16.size a
  hwx5_5 : ∀ i : grid5.Coords, EltTy.bits .f32 = 32 ∨ (Rect.block (s := S1x16) S1x16.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x16.size a ≤ S200000x16.size a
  hwx5_6 : ∀ i : grid5.Coords, EltTy.bits .f32 = 32 ∨ (Rect.block (s := S200000x16) S2000x16.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x16.size a ≤ S200000x16.size a
  hwx6_0 : ∀ i : grid6.Coords, EltTy.bits .f32 = 32 ∨ (Rect.block (s := S200000x16) S2000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x16.size a ≤ S200000x16.size a
  hwx6_1 : ∀ i : grid6.Coords, EltTy.bits .f32 = 32 ∨ (Rect.block (s := S200000x16) S2000x16.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x16.size a ≤ S200000x16.size a
  hwx7_0 : ∀ i : grid7.Coords, EltTy.bits .f32 = 32 ∨ (Rect.block (s := S200000x16) S2000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x16.size a ≤ S200000x16.size a
  hwx7_1 : ∀ i : grid7.Coords, EltTy.bits .f32 = 32 ∨ (Rect.block (s := S200000x16) S2000x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x16.size a ≤ S200000x16.size a
  hwx7_2 : ∀ i : grid7.Coords, EltTy.bits .f32 = 32 ∨ (Rect.block (s := S200000x16) S2000x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x16.size a ≤ S200000x16.size a
  hwx7_3 : ∀ i : grid7.Coords, EltTy.bits .f32 = 32 ∨ (Rect.block (s := S200000x16) S2000x16.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x16.size a ≤ S1024x16.size a
  hwx8_0 : ∀ i : grid8.Coords, EltTy.bits .f32 = 32 ∨ (Rect.block (s := S1024x16) S1024x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16x16.size a ≤ S16x16.size a
  hwx8_1 : ∀ i : grid8.Coords, EltTy.bits .f32 = 32 ∨ (Rect.block (s := S16x16) S16x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S16x16.size a ≤ S16x16.size a
  hwx8_3 : ∀ i : grid8.Coords, EltTy.bits .f32 = 32 ∨ (Rect.block (s := S16x16) S16x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x16.size a ≤ S1x16.size a
  hwx8_4 : ∀ i : grid8.Coords, EltTy.bits .f32 = 32 ∨ (Rect.block (s := S1x16) S1x16.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S16x1.size a ≤ S16x1.size a
  hwx8_5 : ∀ i : grid8.Coords, EltTy.bits .f32 = 32 ∨ (Rect.block (s := S16x1) S16x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x1.size a ≤ S1x1.size a
  hwx8_6 : ∀ i : grid8.Coords, EltTy.bits .f32 = 32 ∨ (Rect.block (s := S1x1) S1x1.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1024x1.size a ≤ S1024x1.size a
  hwx8_7 : ∀ i : grid8.Coords, EltTy.bits .f32 = 32 ∨ (Rect.block (s := S1024x1) S1024x1.size (cc8_transform_7 i) (hinb8_7 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S2000x1_S1x16_S2000x16_1_0_0_1_n_n : DotDims S2000x1 S1x16 S2000x16 where
  lhsContracting := [1]
  rhsContracting := [0]
  lhsNonContracting := [0]
  rhsNonContracting := [1]
  lhsBatch := []
  rhsBatch := []
  wf := dot_S2000x1_S1x16_S2000x16_1_0_0_1_n_n_wf
def gather_S200000x16_S3200000x1_S3200000x16_1_0_n_n_0_1_116 : GatherDims S200000x16 S3200000x1 S3200000x16 where
  offsetDims := [1]
  collapsedSliceDims := [0]
  operandBatchingDims := []
  startIndicesBatchingDims := []
  startIndexMap := [0]
  indexVectorDim := 1
  sliceSizes := ![1, 16]
  wf := gather_S200000x16_S3200000x1_S3200000x16_1_0_n_n_0_1_116_wf
def scatter_S200000x16_S3200000x1_S3200000x16_1_0_0_1 : ScatterDims S200000x16 S3200000x1 S3200000x16 where
  updateWindowDims := [1]
  insertedWindowDims := [0]
  scatterDimsToOperandDims := [0]
  indexVectorDim := 1
  wf := scatter_S200000x16_S3200000x1_S3200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def scatter_S1024x16_S200000x1_S200000x16_1_0_0_1 : ScatterDims S1024x16 S200000x1 S200000x16 where
  updateWindowDims := [1]
  insertedWindowDims := [0]
  scatterDimsToOperandDims := [0]
  indexVectorDim := 1
  wf := scatter_S1024x16_S200000x1_S200000x16_1_0_0_1_wf
def gather_S1024x16_S200000x1_S200000x16_1_0_n_n_0_1_116 : GatherDims S1024x16 S200000x1 S200000x16 where
  offsetDims := [1]
  collapsedSliceDims := [0]
  operandBatchingDims := []
  startIndicesBatchingDims := []
  startIndexMap := [0]
  indexVectorDim := 1
  sliceSizes := ![1, 16]
  wf := gather_S1024x16_S200000x1_S200000x16_1_0_n_n_0_1_116_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S2000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S2000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v75) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S16x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S1x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S2000x16.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v100) S2000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S2000x16.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v100) S2000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S2000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v111) S2000x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v112) S2000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v115) S1024x16.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S16x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg11) S16x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v117) S1x16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg13) S16x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v118) S1x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v119) S1024x1.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S200000x1 : Shape := ⟨2, ![200000, 1]⟩
abbrev S2x3200000 : Shape := ⟨2, ![2, 3200000]⟩
abbrev S200000 : Shape := ⟨1, ![200000]⟩
abbrev S3200000 : Shape := ⟨1, ![3200000]⟩
abbrev S1x16 : Shape := ⟨2, ![1, 16]⟩
abbrev S2x16x16 : Shape := ⟨3, ![2, 16, 16]⟩
abbrev S3x16 : Shape := ⟨2, ![3, 16]⟩
abbrev S3x16x16 : Shape := ⟨3, ![3, 16, 16]⟩
abbrev S16x16 : Shape := ⟨2, ![16, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S200000x16 : Shape := ⟨2, ![200000, 16]⟩
abbrev S3200000x16 : Shape := ⟨2, ![3200000, 16]⟩
abbrev S1x16x16 : Shape := ⟨3, ![1, 16, 16]⟩
abbrev S1024x16 : Shape := ⟨2, ![1024, 16]⟩
abbrev S1024x1 : Shape := ⟨2, ![1024, 1]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S200000x1, .f32⟩
  | 1 => ⟨S2x3200000, .i32⟩
  | 2 => ⟨S200000, .i32⟩
  | 3 => ⟨S3200000, .f32⟩
  | 4 => ⟨S1x16, .f32⟩
  | 5 => ⟨S2x16x16, .f32⟩
  | 6 => ⟨S3x16, .f32⟩
  | 7 => ⟨S3x16x16, .f32⟩
  | 8 => ⟨S3x16, .f32⟩
  | 9 => ⟨S16x16, .f32⟩
  | 10 => ⟨S16, .f32⟩
  | 11 => ⟨S16x16, .f32⟩
  | 12 => ⟨S16, .f32⟩
  | 13 => ⟨S16x1, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S200000, .f32⟩
  | 21 => ⟨S3200000x1, .i32⟩
  | 22 => ⟨S200000, .f32⟩
  | 23 => ⟨S_, .f32⟩
  | 24 => ⟨S200000, .f32⟩
  | 25 => ⟨S200000, .f32⟩
  | 26 => ⟨S200000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S200000, .f32⟩
  | 48 => ⟨S200000x1, .f32⟩
  | 49 => ⟨S1x16, .f32⟩
  | 50 => ⟨S16, .f32⟩
  | 51 => ⟨S200000x16, .f32⟩
  | 52 => ⟨S3200000x1, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x16, .f32⟩
  | 62 => ⟨S3200000x16, .f32⟩
  | 63 => ⟨S3200000x16, .f32⟩
  | 64 => ⟨S_, .f32⟩
  | 65 => ⟨S200000x16, .f32⟩
  | 66 => ⟨S3200000x1, .i32⟩
  | 67 => ⟨S200000x16, .f32⟩
  | 68 => ⟨S200000x16, .f32⟩
  | 69 => ⟨S200000x16, .f32⟩
  | 70 => ⟨S200000x16, .f32⟩
  | 71 => ⟨S1x16, .f32⟩
  | 72 => ⟨S200000x16, .f32⟩
  | 73 => ⟨S200000x16, .f32⟩
  | 74 => ⟨S_, .f32⟩
  | 75 => ⟨S200000x16, .f32⟩
  | 76 => ⟨S200000x16, .f32⟩
  | 77 => ⟨S1x16x16, .f32⟩
  | 78 => ⟨S16x16, .f32⟩
  | 79 => ⟨S200000x16, .f32⟩
  | 80 => ⟨S1x16, .f32⟩
  | 81 => ⟨S16, .f32⟩
  | 82 => ⟨S1x16, .f32⟩
  | 83 => ⟨S200000x16, .f32⟩
  | 84 => ⟨S200000x16, .f32⟩
  | 85 => ⟨S1x16x16, .f32⟩
  | 86 => ⟨S16x16, .f32⟩
  | 87 => ⟨S1x16, .f32⟩
  | 88 => ⟨S16, .f32⟩
  | 89 => ⟨S200000x16, .f32⟩
  | 90 => ⟨S3200000x1, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x16, .f32⟩
  | 100 => ⟨S3200000x16, .f32⟩
  | 101 => ⟨S3200000x16, .f32⟩
  | 102 => ⟨S_, .f32⟩
  | 103 => ⟨S200000x16, .f32⟩
  | 104 => ⟨S3200000x1, .i32⟩
  | 105 => ⟨S200000x16, .f32⟩
  | 106 => ⟨S200000x16, .f32⟩
  | 107 => ⟨S200000x16, .f32⟩
  | 108 => ⟨S200000x16, .f32⟩
  | 109 => ⟨S1x16, .f32⟩
  | 110 => ⟨S200000x16, .f32⟩
  | 111 => ⟨S200000x16, .f32⟩
  | 112 => ⟨S_, .f32⟩
  | 113 => ⟨S200000x16, .f32⟩
  | 114 => ⟨S200000x16, .f32⟩
  | 115 => ⟨S1x16x16, .f32⟩
  | 116 => ⟨S16x16, .f32⟩
  | 117 => ⟨S200000x16, .f32⟩
  | 118 => ⟨S1x16, .f32⟩
  | 119 => ⟨S16, .f32⟩
  | 120 => ⟨S1x16, .f32⟩
  | 121 => ⟨S200000x16, .f32⟩
  | 122 => ⟨S200000x16, .f32⟩
  | 123 => ⟨S1x16x16, .f32⟩
  | 124 => ⟨S16x16, .f32⟩
  | 125 => ⟨S1x16, .f32⟩
  | 126 => ⟨S16, .f32⟩
  | 127 => ⟨S200000x16, .f32⟩
  | _ => ⟨S200000x1, .f32⟩

abbrev hbmTy0_1 (i : Nat) : BufTy := match i % 128 with
  | 0 => ⟨S3200000x1, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x16, .f32⟩
  | 10 => ⟨S3200000x16, .f32⟩
  | 11 => ⟨S3200000x16, .f32⟩
  | 12 => ⟨S_, .f32⟩
  | 13 => ⟨S200000x16, .f32⟩
  | 14 => ⟨S3200000x1, .i32⟩
  | 15 => ⟨S200000x16, .f32⟩
  | 16 => ⟨S200000x16, .f32⟩
  | 17 => ⟨S200000x16, .f32⟩
  | 18 => ⟨S200000x16, .f32⟩
  | 19 => ⟨S1x16, .f32⟩
  | 20 => ⟨S200000x16, .f32⟩
  | 21 => ⟨S200000x16, .f32⟩
  | 22 => ⟨S_, .f32⟩
  | 23 => ⟨S200000x16, .f32⟩
  | 24 => ⟨S200000x16, .f32⟩
  | 25 => ⟨S1x16x16, .f32⟩
  | 26 => ⟨S16x16, .f32⟩
  | 27 => ⟨S200000x16, .f32⟩
  | 28 => ⟨S1x16, .f32⟩
  | 29 => ⟨S16, .f32⟩
  | 30 => ⟨S1x16, .f32⟩
  | 31 => ⟨S200000x16, .f32⟩
  | 32 => ⟨S200000x16, .f32⟩
  | 33 => ⟨S_, .f32⟩
  | 34 => ⟨S200000x16, .f32⟩
  | 35 => ⟨S200000x16, .f32⟩
  | 36 => ⟨S200000x16, .f32⟩
  | 37 => ⟨S_, .f32⟩
  | 38 => ⟨S1024x16, .f32⟩
  | 39 => ⟨S200000x1, .i32⟩
  | 40 => ⟨S1024x16, .f32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000x16, .f32⟩
  | 50 => ⟨S200000x16, .f32⟩
  | 51 => ⟨S200000x16, .f32⟩
  | 52 => ⟨S_, .f32⟩
  | 53 => ⟨S1024x16, .f32⟩
  | 54 => ⟨S200000x1, .i32⟩
  | 55 => ⟨S1024x16, .f32⟩
  | 56 => ⟨S1024x16, .f32⟩
  | 57 => ⟨S1x16, .f32⟩
  | 58 => ⟨S1024x16, .f32⟩
  | 59 => ⟨S1024x16, .f32⟩
  | 60 => ⟨S_, .f32⟩
  | 61 => ⟨S1024x16, .f32⟩
  | 62 => ⟨S1024x16, .f32⟩
  | 63 => ⟨S1024x16, .f32⟩
  | 64 => ⟨S1x16, .f32⟩
  | 65 => ⟨S1024x16, .f32⟩
  | 66 => ⟨S1024x16, .f32⟩
  | 67 => ⟨S_, .f32⟩
  | 68 => ⟨S1024x16, .f32⟩
  | 69 => ⟨S1024x16, .f32⟩
  | 70 => ⟨S1024x1, .f32⟩
  | 71 => ⟨S1x1, .f32⟩
  | 72 => ⟨S1024x1, .f32⟩
  | 73 => ⟨S1024x1, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_7 : Ref sig .tc := ⟨.hbm, 91, rfl⟩
abbrev main_v65 : Ref sig .tc := ⟨.hbm, 92, rfl⟩
abbrev main_v66 : Ref sig .tc := ⟨.hbm, 93, rfl⟩
abbrev main_c_8 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_call1_cst : Ref sig .tc := ⟨.hbm, 112, rfl⟩
abbrev main_call1_v0 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_10 : Ref sig .tc := ⟨.hbm, 129, rfl⟩
abbrev main_v98 : Ref sig .tc := ⟨.hbm, 130, rfl⟩
abbrev main_v99 : Ref sig .tc := ⟨.hbm, 131, rfl⟩
abbrev main_c_11 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_12 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_call2_cst : Ref sig .tc := ⟨.hbm, 150, rfl⟩
abbrev main_call2_v0 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_13 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_14 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c_15 : Ref sig .tc := ⟨.hbm, 169, rfl⟩
abbrev main_v131 : Ref sig .tc := ⟨.hbm, 170, rfl⟩
abbrev main_v132 : Ref sig .tc := ⟨.hbm, 171, rfl⟩
abbrev main_c_16 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_17 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_call3_cst : Ref sig .tc := ⟨.hbm, 188, rfl⟩
abbrev main_call3_v0 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_call4_cst : Ref sig .tc := ⟨.hbm, 195, rfl⟩
abbrev main_call4_v0 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S200000 : S_.BroadcastsInDim S200000 (![] : Fin 0 → Fin S200000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S200000_S200000x1_0 : S200000.BroadcastsInDim S200000x1 (![0] : Fin 1 → Fin S200000x1.rank)
  slices_S3x16_S1x16_0_0 : S3x16.Slices ![0, 0] S1x16
  shapeCasts_S1x16_S16 : S1x16.ShapeCasts S16
  bcast_S3200000x1_S3200000x16_0_1 : S3200000x1.BroadcastsInDim S3200000x16 (![0, 1] : Fin 2 → Fin S3200000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  slices_S3x16x16_S1x16x16_0_0_0 : S3x16x16.Slices ![0, 0, 0] S1x16x16
  shapeCasts_S1x16x16_S16x16 : S1x16x16.ShapeCasts S16x16
  slices_S2x16x16_S1x16x16_0_0_0 : S2x16x16.Slices ![0, 0, 0] S1x16x16
  slices_S3x16_S1x16_1_0 : S3x16.Slices ![1, 0] S1x16
  slices_S3x16x16_S1x16x16_1_0_0 : S3x16x16.Slices ![1, 0, 0] S1x16x16
  slices_S2x16x16_S1x16x16_1_0_0 : S2x16x16.Slices ![1, 0, 0] S1x16x16
  slices_S3x16_S1x16_2_0 : S3x16.Slices ![2, 0] S1x16
  slices_S3x16x16_S1x16x16_2_0_0 : S3x16x16.Slices ![2, 0, 0] S1x16x16
  bcast_S_S1024x16 : S_.BroadcastsInDim S1024x16 (![] : Fin 0 → Fin S1024x16.rank)
  bcast_S1x16_S1024x16_0_1 : S1x16.BroadcastsInDim S1024x16 (![0, 1] : Fin 2 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S200000x1_S1x16_S200000x16_1_0_0_1_n_n_wf : DotDims.WF S200000x1 S1x16 S200000x16 [1] [0] [0] [1] [] []
  gather_S200000x16_S3200000x1_S3200000x16_1_0_n_n_0_1_116_wf : GatherDims.WF S200000x16 S3200000x1 S3200000x16 [1] [0] [] [0] [] 1 ![1, 16]
  scatter_S200000x16_S3200000x1_S3200000x16_1_0_0_1_wf : ScatterDims.WF S200000x16 S3200000x1 S3200000x16 [1] [0] [0] 1
  dot_S200000x16_S16x16_S200000x16_1_0_0_1_n_n_wf : DotDims.WF S200000x16 S16x16 S200000x16 [1] [0] [0] [1] [] []
  scatter_S1024x16_S200000x1_S200000x16_1_0_0_1_wf : ScatterDims.WF S1024x16 S200000x1 S200000x16 [1] [0] [0] 1
  gather_S1024x16_S200000x1_S200000x16_1_0_n_n_0_1_116_wf : GatherDims.WF S1024x16 S200000x1 S200000x16 [1] [0] [] [0] [] 1 ![1, 16]
  dot_S1024x16_S16x16_S1024x16_1_0_0_1_n_n_wf : DotDims.WF S1024x16 S16x16 S1024x16 [1] [0] [0] [1] [] []
  dot_S1024x16_S16x1_S1024x1_1_0_0_1_n_n_wf : DotDims.WF S1024x16 S16x1 S1024x1 [1] [0] [0] [1] [] []

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def gather_S200000x16_S3200000x1_S3200000x16_1_0_n_n_0_1_116 : GatherDims S200000x16 S3200000x1 S3200000x16 where
  offsetDims := [1]
  collapsedSliceDims := [0]
  operandBatchingDims := []
  startIndicesBatchingDims := []
  startIndexMap := [0]
  indexVectorDim := 1
  sliceSizes := ![1, 16]
  wf := gather_S200000x16_S3200000x1_S3200000x16_1_0_n_n_0_1_116_wf
def scatter_S200000x16_S3200000x1_S3200000x16_1_0_0_1 : ScatterDims S200000x16 S3200000x1 S3200000x16 where
  updateWindowDims := [1]
  insertedWindowDims := [0]
  scatterDimsToOperandDims := [0]
  indexVectorDim := 1
  wf := scatter_S200000x16_S3200000x1_S3200000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def scatter_S1024x16_S200000x1_S200000x16_1_0_0_1 : ScatterDims S1024x16 S200000x1 S200000x16 where
  updateWindowDims := [1]
  insertedWindowDims := [0]
  scatterDimsToOperandDims := [0]
  indexVectorDim := 1
  wf := scatter_S1024x16_S200000x1_S200000x16_1_0_0_1_wf
def gather_S1024x16_S200000x1_S200000x16_1_0_n_n_0_1_116 : GatherDims S1024x16 S200000x1 S200000x16 where
  offsetDims := [1]
  collapsedSliceDims := [0]
  operandBatchingDims := []
  startIndicesBatchingDims := []
  startIndexMap := [0]
  indexVectorDim := 1
  sliceSizes := ![1, 16]
  wf := gather_S1024x16_S200000x1_S200000x16_1_0_n_n_0_1_116_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

class Facts : Prop extends Facts₀ where

variable [Facts]
-- ==== Proof.RunValue.lean ====
/-
  The idealized kernel's whole run, read at every buffer. The program is nine kernel launches among stretches of
  host operations, and its buffers' contents at each boundary are a fold from the launch memory: a host stretch
  applies its operations in order; a launch replaces its output array by what its grid points write back and leaves
  every other buffer alone. Launching all seventeen segments in order from the launch memory, every weakly fair
  execution terminates without a fault, and in the final memory EVERY buffer that outlives a kernel body holds the
  last fold's value there. The result buffer and the fifteen argument arrays are such buffers: the first reads the
  last fold at the result, the others are never written, so they read back as launched.
-/
import proofs.«130611_j3504693313558_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read off a final memory: on core `c`, every buffer that outlives the kernel bodies holds the last
    boundary's contents. -/
abbrev AtLastBoundary (c : Dev nD) (s : MemSt nD τ sig (Elt F)) : Prop :=
  ∀ b ∈ Pipeline.ucRefs τ sig, s.mem (((c : Thread nD τ)).1, b) = W17 m ρ c b

/-- The launch element yields the pipelines' ghost state at every staging cell; no core is handed anything else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last thread state against a final memory: the buffers it holds are read there. -/
theorem read_last (c : Dev nD) (s' : Phys nD τ sig (Elt F)) :
    iprop(Tₙ m ρ c ∗ SI s') ⊢ |={Set.univ}=> iprop(⌜AtLastBoundary m ρ c s'.mem⌝ ∗ SI s') := by
  iintro ⟨⟨Hh, -⟩, HSI⟩
  unfold StableHlo.held
  imodintro
  iapply (pointsTo_read_all (Pipeline.ucRefs τ sig) (fun b => (((c : Thread nD τ)).1, b)) (W17 m ρ c) s')
  isplitl [Hh] <;> iassumption

-- the launch theorem's implicit arguments are found by unifying its conclusion with this one, which takes unfolding
-- plain definitions in a metavariable's type
set_option backward.isDefEq.respectTransparency.types false in
/-- THE RUN: every weakly fair execution terminates without a fault, and on every core every buffer that outlives
    the kernel bodies ends at the last boundary's contents. -/
theorem run_boundary : θ_run defs (onTc (τ := τ) (main (F := F))) ⟨m, fun _ => 0, ρ⟩
    (fun r => ∀ c : Dev nD, AtLastBoundary m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := AtLastBoundary m ρ)
    (hfin := read_last m ρ)
    (hQ := fun _ h => h)

/-- The run with the result named: the result buffer ends at the last boundary's contents and every argument
    array as launched (no segment writes an argument). -/
theorem run_result : θ_run defs (onTc (τ := τ) (main (F := F))) ⟨m, fun _ => 0, ρ⟩ (fun r => ∀ c : Dev nD,
      r.2.mem ((c.tc : Thread nD τ).loc main_v119) = W17 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v119 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c)⟩)
    (run_boundary m ρ)

end Cert.KernelIdeal.RunValue

end
-- ==== Proof.Keep.lean ====
/-
  Which buffers a segment leaves alone. The program's buffers' contents at its seventeen boundaries are a fold
  (W0 the launch memory, W1 after the first host stretch, W2 after the first kernel launch, ... W17 at the return).
  A host stretch rewrites only the buffers its operations write, and those were all allocated after the stretch's
  first result: it keeps every buffer of smaller index. A kernel launch rewrites only its output array and leaves
  every buffer that is not one of its arrays alone. Two families ride through many boundaries: the fifteen argument
  arrays (the first fifteen buffers, never written: every boundary finds them as launched; the first launch has two
  of them among its own input arrays and they are not needed after it), and the results of the first host stretch
  other than its last one (the index vectors and the edge normalisation, which the first five launches never touch).
-/
import proofs.«130611_j3504693313558_2_alg».proof.Proof.Gen.KernelIdeal.Frame

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Two references with different indices are different. -/
theorem ne_of_idx_ne {b y : Ref sig .tc} (h : b.idx.val ≠ y.idx.val) : b ≠ y := fun e => h (by subst e; rfl)

/-- A host stretch keeps every buffer none of its operations writes: every buffer whose index is below the index
    of each of the stretch's results. -/
local macro "keeps_below" ops:ident hb:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (ne_of_idx_ne (Nat.ne_of_lt (Nat.lt_of_lt_of_le $hb (by decide)))))))

section Host
variable (W : Valuation τ sig (Elt F)) (b : Ref sig .tc)
theorem host0_keeps (hb : b.idx.val < 15) : StableHlo.after hostOps0 W (Proc.devRef .tc b) = W (Proc.devRef .tc b) := by keeps_below hostOps0 hb
theorem host1_keeps (hb : b.idx.val < main_v29.idx.val) : StableHlo.after hostOps1 W (Proc.devRef .tc b) = W (Proc.devRef .tc b) := by keeps_below hostOps1 hb
theorem host2_keeps (hb : b.idx.val < main_v51.idx.val) : StableHlo.after hostOps2 W (Proc.devRef .tc b) = W (Proc.devRef .tc b) := by keeps_below hostOps2 hb
theorem host3_keeps (hb : b.idx.val < main_v54.idx.val) : StableHlo.after hostOps3 W (Proc.devRef .tc b) = W (Proc.devRef .tc b) := by keeps_below hostOps3 hb
theorem host4_keeps (hb : b.idx.val < main_v76.idx.val) : StableHlo.after hostOps4 W (Proc.devRef .tc b) = W (Proc.devRef .tc b) := by keeps_below hostOps4 hb
theorem host5_keeps (hb : b.idx.val < main_v79.idx.val) : StableHlo.after hostOps5 W (Proc.devRef .tc b) = W (Proc.devRef .tc b) := by keeps_below hostOps5 hb
theorem host7_keeps (hb : b.idx.val < main_cst_13.idx.val) : StableHlo.after hostOps7 W (Proc.devRef .tc b) = W (Proc.devRef .tc b) := by keeps_below hostOps7 hb
theorem host8_keeps (hb : b.idx.val < main_cst_16.idx.val) : StableHlo.after hostOps8 W (Proc.devRef .tc b) = W (Proc.devRef .tc b) := by keeps_below hostOps8 hb
end Host

/-! ## The launches' arrays -/

/-- The first launch's arrays are the node features, the first weight row, and its output. -/
theorem spec0_arrays : ∀ w : Fin 3, (Pipeline.arrRef spec0 w).idx.val = 0 ∨ (Pipeline.arrRef spec0 w).idx.val = 4
    ∨ 48 ≤ (Pipeline.arrRef spec0 w).idx.val := by decide
/-- Every array of the next seven launches is the self-loop coefficient or was allocated after it. -/
theorem spec1_arrays : ∀ w : Fin 7, 48 ≤ (Pipeline.arrRef spec1 w).idx.val := by decide
theorem spec2_arrays : ∀ w : Fin 3, 48 ≤ (Pipeline.arrRef spec2 w).idx.val := by decide
theorem spec3_arrays : ∀ w : Fin 7, 48 ≤ (Pipeline.arrRef spec3 w).idx.val := by decide
theorem spec4_arrays : ∀ w : Fin 3, 48 ≤ (Pipeline.arrRef spec4 w).idx.val := by decide
theorem spec5_arrays : ∀ w : Fin 7, 48 ≤ (Pipeline.arrRef spec5 w).idx.val := by decide
theorem spec6_arrays : ∀ w : Fin 2, 48 ≤ (Pipeline.arrRef spec6 w).idx.val := by decide
theorem spec7_arrays : ∀ w : Fin 4, 48 ≤ (Pipeline.arrRef spec7 w).idx.val := by decide

variable (c : Dev nD) (b : Ref sig .tc)

/-! ## The argument arrays at every boundary -/

theorem W1_arg (hb : b.idx.val < 15) : W1 m ρ c (Proc.devRef .tc b) = m ((c : Thread nD τ).loc b) :=
  host0_keeps (W0 m ρ c) b hb

/-- An argument other than the node features and the first weight row. -/
def Later (b : Ref sig .tc) : Prop := b.idx.val < 15 ∧ b.idx.val ≠ 0 ∧ b.idx.val ≠ 4

section Args
variable (hb : Later b)
include hb

theorem W2_arg : W2 m ρ c (Proc.devRef .tc b) = m ((c : Thread nD τ).loc b) :=
  (W2_of_ne m ρ c b fun w => (ne_of_idx_ne (by rcases spec0_arrays w with h | h | h <;> have := hb.1 <;> have := hb.2.1 <;> have := hb.2.2 <;> omega)).symm).trans
    (W1_arg m ρ c b hb.1)
theorem W3_arg : W3 m ρ c (Proc.devRef .tc b) = m ((c : Thread nD τ).loc b) :=
  (host1_keeps (W2 m ρ c) b (Nat.lt_trans hb.1 (by decide))).trans (W2_arg m ρ c b hb)
theorem W4_arg : W4 m ρ c (Proc.devRef .tc b) = m ((c : Thread nD τ).loc b) :=
  (W4_of_ne m ρ c b fun w => (ne_of_idx_ne (by have := spec1_arrays w; have := hb.1; omega)).symm).trans (W3_arg m ρ c b hb)
theorem W5_arg : W5 m ρ c (Proc.devRef .tc b) = m ((c : Thread nD τ).loc b) :=
  (host2_keeps (W4 m ρ c) b (Nat.lt_trans hb.1 (by decide))).trans (W4_arg m ρ c b hb)
theorem W6_arg : W6 m ρ c (Proc.devRef .tc b) = m ((c : Thread nD τ).loc b) :=
  (W6_of_ne m ρ c b fun w => (ne_of_idx_ne (by have := spec2_arrays w; have := hb.1; omega)).symm).trans (W5_arg m ρ c b hb)
theorem W7_arg : W7 m ρ c (Proc.devRef .tc b) = m ((c : Thread nD τ).loc b) :=
  (host3_keeps (W6 m ρ c) b (Nat.lt_trans hb.1 (by decide))).trans (W6_arg m ρ c b hb)
theorem W8_arg : W8 m ρ c (Proc.devRef .tc b) = m ((c : Thread nD τ).loc b) :=
  (W8_of_ne m ρ c b fun w => (ne_of_idx_ne (by have := spec3_arrays w; have := hb.1; omega)).symm).trans (W7_arg m ρ c b hb)
theorem W9_arg : W9 m ρ c (Proc.devRef .tc b) = m ((c : Thread nD τ).loc b) :=
  (host4_keeps (W8 m ρ c) b (Nat.lt_trans hb.1 (by decide))).trans (W8_arg m ρ c b hb)
theorem W10_arg : W10 m ρ c (Proc.devRef .tc b) = m ((c : Thread nD τ).loc b) :=
  (W10_of_ne m ρ c b fun w => (ne_of_idx_ne (by have := spec4_arrays w; have := hb.1; omega)).symm).trans (W9_arg m ρ c b hb)
theorem W11_arg : W11 m ρ c (Proc.devRef .tc b) = m ((c : Thread nD τ).loc b) :=
  (host5_keeps (W10 m ρ c) b (Nat.lt_trans hb.1 (by decide))).trans (W10_arg m ρ c b hb)
theorem W12_arg : W12 m ρ c (Proc.devRef .tc b) = m ((c : Thread nD τ).loc b) :=
  (W12_of_ne m ρ c b fun w => (ne_of_idx_ne (by have := spec5_arrays w; have := hb.1; omega)).symm).trans (W11_arg m ρ c b hb)
theorem W13_arg : W13 m ρ c (Proc.devRef .tc b) = m ((c : Thread nD τ).loc b) :=
  (W13_of_ne m ρ c b fun w => (ne_of_idx_ne (by have := spec6_arrays w; have := hb.1; omega)).symm).trans (W12_arg m ρ c b hb)
theorem W14_arg : W14 m ρ c (Proc.devRef .tc b) = m ((c : Thread nD τ).loc b) :=
  (host7_keeps (W13 m ρ c) b (Nat.lt_trans hb.1 (by decide))).trans (W13_arg m ρ c b hb)
theorem W15_arg : W15 m ρ c (Proc.devRef .tc b) = m ((c : Thread nD τ).loc b) :=
  (W15_of_ne m ρ c b fun w => (ne_of_idx_ne (by have := spec7_arrays w; have := hb.1; omega)).symm).trans (W14_arg m ρ c b hb)
theorem W16_arg : W16 m ρ c (Proc.devRef .tc b) = m ((c : Thread nD τ).loc b) :=
  (host8_keeps (W15 m ρ c) b (Nat.lt_trans hb.1 (by decide))).trans (W15_arg m ρ c b hb)

end Args

/-! ## The first stretch's early results up to the fifth launch -/

/-- A result of the first host stretch allocated before the self-loop coefficient. -/
def Early (b : Ref sig .tc) : Prop := 15 ≤ b.idx.val ∧ b.idx.val < 48

section EarlyResults
variable (hb : Early b)
include hb

theorem W2_early : W2 m ρ c (Proc.devRef .tc b) = W1 m ρ c (Proc.devRef .tc b) :=
  W2_of_ne m ρ c b fun w => (ne_of_idx_ne (by rcases spec0_arrays w with h | h | h <;> have := hb.1 <;> have := hb.2 <;> omega)).symm
theorem W3_early : W3 m ρ c (Proc.devRef .tc b) = W1 m ρ c (Proc.devRef .tc b) :=
  (host1_keeps (W2 m ρ c) b (Nat.lt_trans hb.2 (by decide))).trans (W2_early m ρ c b hb)
theorem W4_early : W4 m ρ c (Proc.devRef .tc b) = W1 m ρ c (Proc.devRef .tc b) :=
  (W4_of_ne m ρ c b fun w => (ne_of_idx_ne (by have := spec1_arrays w; have := hb.2; omega)).symm).trans (W3_early m ρ c b hb)
theorem W5_early : W5 m ρ c (Proc.devRef .tc b) = W1 m ρ c (Proc.devRef .tc b) :=
  (host2_keeps (W4 m ρ c) b (Nat.lt_trans hb.2 (by decide))).trans (W4_early m ρ c b hb)
theorem W6_early : W6 m ρ c (Proc.devRef .tc b) = W1 m ρ c (Proc.devRef .tc b) :=
  (W6_of_ne m ρ c b fun w => (ne_of_idx_ne (by have := spec2_arrays w; have := hb.2; omega)).symm).trans (W5_early m ρ c b hb)
theorem W7_early : W7 m ρ c (Proc.devRef .tc b) = W1 m ρ c (Proc.devRef .tc b) :=
  (host3_keeps (W6 m ρ c) b (Nat.lt_trans hb.2 (by decide))).trans (W6_early m ρ c b hb)
theorem W8_early : W8 m ρ c (Proc.devRef .tc b) = W1 m ρ c (Proc.devRef .tc b) :=
  (W8_of_ne m ρ c b fun w => (ne_of_idx_ne (by have := spec3_arrays w; have := hb.2; omega)).symm).trans (W7_early m ρ c b hb)
theorem W9_early : W9 m ρ c (Proc.devRef .tc b) = W1 m ρ c (Proc.devRef .tc b) :=
  (host4_keeps (W8 m ρ c) b (Nat.lt_trans hb.2 (by decide))).trans (W8_early m ρ c b hb)
theorem W10_early : W10 m ρ c (Proc.devRef .tc b) = W1 m ρ c (Proc.devRef .tc b) :=
  (W10_of_ne m ρ c b fun w => (ne_of_idx_ne (by have := spec4_arrays w; have := hb.2; omega)).symm).trans (W9_early m ρ c b hb)

end EarlyResults

end Cert.KernelIdeal.Boundary

end
-- ==== Proof.NetSpec.lean ====
/-
  What each kernel of the network computes, as ONE function of whole arrays, written with the host operations the
  plain-jnp reference uses for the same step (over the reference's shapes and dimension records):
    lin1     x . W                       the first layer's map of the one input feature, [200000,1] x [1,16]
    lin16    h . W                       a later layer's map, [200000,16] x [16,16]
    combine  max(agg + s * hw + b, 0) . lw + lb     aggregation, self term (s is a column, one value per node,
             spread over the 16 features), bias row, rectifier, then the layer's linear map and its bias row
    score    exp(0.2 * h)
    weight   h * (score / denominator)
    mlp      max(max(p . w1 + b1, 0) . w2 + b2, 0) . w3 + b3     the head on the pooled features
  Bias rows are [1,16] (or [1,1]) arrays spread over the rows.
-/
import proofs.«130611_j3504693313558_2_alg».proof.Proof.Gen.ReferenceIdeal
import Idealize.ShloMosaic.PureOps.Ideal

noncomputable section

namespace Cert.NetSpec

open Cert.ReferenceIdeal Cert.ReferenceIdeal.Gen Idealize.ShloMosaic

/-- The rectifier as the reference spells it: the maximum with the zero array. -/
def relu200000 (x : FVec Ideal S200000x16 .f32) : FVec Ideal S200000x16 .f32 :=
  maximumf x (broadcastInDim S200000x16 ![] bcast_S_S200000x16 (constant (F := Ideal) S_ .f32 0x00000000#32))

def relu1024 (x : FVec Ideal S1024x16 .f32) : FVec Ideal S1024x16 .f32 :=
  maximumf x (broadcastInDim S1024x16 ![] bcast_S_S1024x16 (constant (F := Ideal) S_ .f32 0x00000000#32))

def lin1 (x : FVec Ideal S200000x1 .f32) (w : FVec Ideal S1x16 .f32) : FVec Ideal S200000x16 .f32 :=
  Host.dotGeneral (F := Ideal) dot_S200000x1_S1x16_S200000x16_1_0_0_1_n_n none x w

def lin16 (h : FVec Ideal S200000x16 .f32) (w : FVec Ideal S16x16 .f32) : FVec Ideal S200000x16 .f32 :=
  Host.dotGeneral (F := Ideal) dot_S200000x16_S16x16_S200000x16_1_0_0_1_n_n none h w

def combine (agg : FVec Ideal S200000x16 .f32) (s : FVec Ideal S200000x1 .f32) (hw : FVec Ideal S200000x16 .f32)
    (b : FVec Ideal S1x16 .f32) (lw : FVec Ideal S16x16 .f32) (lb : FVec Ideal S1x16 .f32) : FVec Ideal S200000x16 .f32 :=
  addf
    (Host.dotGeneral (F := Ideal) dot_S200000x16_S16x16_S200000x16_1_0_0_1_n_n none
      (relu200000
        (addf (addf agg (mulf (broadcastInDim S200000x16 ![0, 1] bcast_S200000x1_S200000x16_0_1 s) hw))
          (broadcastInDim S200000x16 ![0, 1] bcast_S1x16_S200000x16_0_1 b)))
      lw)
    (broadcastInDim S200000x16 ![0, 1] bcast_S1x16_S200000x16_0_1 lb)

def score (h : FVec Ideal S200000x16 .f32) : FVec Ideal S200000x16 .f32 :=
  Host.exp (F := Ideal)
    (mulf (broadcastInDim S200000x16 ![] bcast_S_S200000x16 (constant (F := Ideal) S_ .f32 0x3E4CCCCD#32)) h)

def weight (h s d : FVec Ideal S200000x16 .f32) : FVec Ideal S200000x16 .f32 :=
  mulf h (Host.divf (F := Ideal) s d)

def mlp (p : FVec Ideal S1024x16 .f32) (w1 : FVec Ideal S16x16 .f32) (b1 : FVec Ideal S1x16 .f32)
    (w2 : FVec Ideal S16x16 .f32) (b2 : FVec Ideal S1x16 .f32) (w3 : FVec Ideal S16x1 .f32) (b3 : FVec Ideal S1x1 .f32) :
    FVec Ideal S1024x1 .f32 :=
  addf
    (Host.dotGeneral (F := Ideal) dot_S1024x16_S16x1_S1024x1_1_0_0_1_n_n none
      (relu1024
        (addf
          (Host.dotGeneral (F := Ideal) dot_S1024x16_S16x16_S1024x16_1_0_0_1_n_n none
            (relu1024
              (addf (Host.dotGeneral (F := Ideal) dot_S1024x16_S16x16_S1024x16_1_0_0_1_n_n none p w1)
                (broadcastInDim S1024x16 ![0, 1] bcast_S1x16_S1024x16_0_1 b1)))
            w2)
          (broadcastInDim S1024x16 ![0, 1] bcast_S1x16_S1024x16_0_1 b2)))
      w3)
    (broadcastInDim S1024x1 ![0, 1] bcast_S1x1_S1024x1_0_1 b3)

end Cert.NetSpec

end
-- ==== Proof.LibReshape.lean ====
/-
  A vector of length `n` relaid as an `[n, 1]` column or as a `[1, n]` row holds, at an index, the vector's
  entry at the index's coordinate along the long axis. Two host spellings of that relayout — a reshape (the same
  elements in row-major order) and a broadcast_in_dim placing the vector's axis at axis 0, resp. 1 — are
  therefore the same array: along a unit axis the row-major position does not move.
-/
import Idealize.ShloMosaic.Lib.Pipeline.Value
import Idealize.ShloMosaic.Lib.ValueIdx

namespace Cert.LibReshape

open Idealize.ShloMosaic Idealize.ShloMosaic.ValueIdx

/-- A length-`n` vector reshaped to `[n, 1]` is its broadcast along axis 0: entry `(r, 0)` is the vector's `r`. -/
theorem shapeCast_eq_column {α : Type} {n : Nat} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) hb x := by
  funext j
  have h0 : (j 0).val < n := idx2_lt0 j
  have h1 : (j 1).val = 0 := by have := idx2_lt1 j; omega
  have e1 := shapeCast_apply x h j (ix1 (⟨(j 0).val, h0⟩ : Fin n)) (by
    rw [Shape.rowMajor_val_one, Shape.rowMajor_val_two]
    show (j 0).val = (j 0).val * 1 + (j 1).val
    omega)
  have e2 := broadcastInDim_apply (![0] : Fin 1 → Fin 2) hb x j (ix1 (⟨(j 0).val, h0⟩ : Fin n)) (fun a => by
    match a with
    | ⟨0, _⟩ =>
      show (j 0).val = if n = 1 then 0 else (j 0).val
      split
      · omega
      · rfl)
  rw [e1, e2]

/-- A length-`n` vector reshaped to `[1, n]` is its broadcast along axis 1: entry `(0, j)` is the vector's `j`. -/
theorem shapeCast_eq_row {α : Type} {n : Nat} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) hb x := by
  funext j
  have h0 : (j 0).val = 0 := by have := idx2_lt0 j; omega
  have h1 : (j 1).val < n := idx2_lt1 j
  have e1 := shapeCast_apply x h j (ix1 (⟨(j 1).val, h1⟩ : Fin n)) (by
    rw [Shape.rowMajor_val_one, Shape.rowMajor_val_two]
    show (j 1).val = (j 0).val * n + (j 1).val
    rw [h0]; omega)
  have e2 := broadcastInDim_apply (![1] : Fin 1 → Fin 2) hb x j (ix1 (⟨(j 1).val, h1⟩ : Fin n)) (fun a => by
    match a with
    | ⟨0, _⟩ =>
      show (j 1).val = if n = 1 then 0 else (j 1).val
      split
      · omega
      · rfl)
  rw [e1, e2]

end Cert.LibReshape
-- ==== Proof.ChainA.lean ====
/-
  The first boundary. The kernel's program and the reference open with the same host operations on the same two
  arguments (the edge list and the edge weights): the two rows of the edge list as source and destination index
  vectors, the weighted in-degree plus one by a scatter-add over destinations, its reciprocal square root d, the edge
  normalisation d[src] * weight * d[dst] (negative indices wrapped by the node count before each gather), and the
  self-loop coefficient d * d as a column. So after the kernel's first host stretch those four buffers hold the
  reference's stages of the same name, as functions of the launch contents of the two arguments.
-/
import proofs.«130611_j3504693313558_2_alg».proof.Proof.Keep
import proofs.«130611_j3504693313558_2_alg».proof.Proof.Gen.ReferenceIdeal.Read
import proofs.«130611_j3504693313558_2_alg».proof.Proof.NetSpec
import proofs.«130611_j3504693313558_2_alg».proof.Proof.LibReshape

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-- The source index vector. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  simp only [hostOps0]
  after_results_simp
  rfl

/-- The destination index vector. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  simp only [hostOps0]
  after_results_simp
  rfl

set_option maxHeartbeats 4000000 in
/-- The edge normalisation. -/
theorem W1_v25 : W1 m ρ c (Proc.devRef .tc main_v25) = val_main_v25 (F := Ideal) (m ((c : Thread nD τ).loc main_arg1)) (m ((c : Thread nD τ).loc main_arg3)) := by
  show StableHlo.after hostOps0 (W0 m ρ c) (Proc.devRef .tc main_v25) = _
  simp only [hostOps0]
  after_results_simp
  rfl

set_option maxHeartbeats 4000000 in
/-- The self-loop coefficient, one per node, as a column. -/
theorem W1_v27 : W1 m ρ c (Proc.devRef .tc main_v27) = val_main_v27 (F := Ideal) (m ((c : Thread nD τ).loc main_arg1)) (m ((c : Thread nD τ).loc main_arg3)) := by
  show StableHlo.after hostOps0 (W0 m ρ c) (Proc.devRef .tc main_v27) = _
  simp only [hostOps0]
  after_results_simp
  rfl

end Cert.KernelIdeal.Boundary

end
-- ==== Proof.Lin16.lean ====
/-
  A row-tiled matrix product against the whole one. The node features h : [200000, 16] are cut into 100 row
  blocks of 2000 rows; grid point t multiplies block t by the whole 16 x 16 weight matrix W and writes the product
  back as row block t of the output. Row r of the output therefore holds, in column j, the sum over k of
  h[r, k] * W[k, j] -- exactly the entry of the one whole product h . W -- because row r lies in exactly one
  block (t = r / 2000) and the sum over k never leaves that row. At the ideal instance the rounding of both
  operands before the product is the identity, so nothing else happens.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem zero_off : (![0, 0] : Fin 2 → Nat) = fun _ => 0 := funext fun a => by fin_cases a <;> rfl

/-! ## The operand indices of the two products, coordinate by coordinate -/

/-- The tile product [2000,16] x [16,16]. -/
abbrev Dt := dot_S2000x16_S16x16_S2000x16_1_0_0_1_n_n
/-- The whole product [200000,16] x [16,16]. -/
abbrev Dw := Cert.ReferenceIdeal.dot_S200000x16_S16x16_S200000x16_1_0_0_1_n_n

theorem Dt_lhs_0 (i : S2000x16.Idx) (q : Dt.contr.Idx) : (Dt.lhsIdx i q 0).val = (i 0).val := by
  unfold DotDims.lhsIdx
  rw [dif_neg (show ¬(0 : Fin S2000x16.rank) ∈ Dt.lhsBatch by decide), dif_pos (show (0 : Fin S2000x16.rank) ∈ Dt.lhsNonContracting by decide)]
  rfl
theorem Dt_lhs_1 (i : S2000x16.Idx) (q : Dt.contr.Idx) : (Dt.lhsIdx i q 1).val = (q ⟨0, by decide⟩).val :=
  Dt.lhsIdx_val_of_single rfl i q
theorem Dt_rhs_0 (i : S2000x16.Idx) (q : Dt.contr.Idx) : (Dt.rhsIdx i q 0).val = (q ⟨0, by decide⟩).val :=
  Dt.rhsIdx_val_of_single rfl i q
theorem Dt_rhs_1 (i : S2000x16.Idx) (q : Dt.contr.Idx) : (Dt.rhsIdx i q 1).val = (i 1).val := by
  unfold DotDims.rhsIdx
  rw [dif_neg (show ¬(1 : Fin S16x16.rank) ∈ Dt.rhsBatch by decide), dif_pos (show (1 : Fin S16x16.rank) ∈ Dt.rhsNonContracting by decide)]
  rfl

theorem Dw_lhs_0 (i : S200000x16.Idx) (q : Dw.contr.Idx) : (Dw.lhsIdx i q 0).val = (i 0).val := by
  unfold DotDims.lhsIdx
  rw [dif_neg (show ¬(0 : Fin S200000x16.rank) ∈ Dw.lhsBatch by decide), dif_pos (show (0 : Fin S200000x16.rank) ∈ Dw.lhsNonContracting by decide)]
  rfl
theorem Dw_lhs_1 (i : S200000x16.Idx) (q : Dw.contr.Idx) : (Dw.lhsIdx i q 1).val = (q ⟨0, by decide⟩).val :=
  Dw.lhsIdx_val_of_single rfl i q
theorem Dw_rhs_0 (i : S200000x16.Idx) (q : Dw.contr.Idx) : (Dw.rhsIdx i q 0).val = (q ⟨0, by decide⟩).val :=
  Dw.rhsIdx_val_of_single rfl i q
theorem Dw_rhs_1 (i : S200000x16.Idx) (q : Dw.contr.Idx) : (Dw.rhsIdx i q 1).val = (i 1).val := by
  unfold DotDims.rhsIdx
  rw [dif_neg (show ¬(1 : Fin S16x16.rank) ∈ Dw.rhsBatch by decide), dif_pos (show (1 : Fin S16x16.rank) ∈ Dw.rhsNonContracting by decide)]
  rfl

/-! ## One entry of a tile's product is the whole product's entry in the same row -/

/-- If the tile `x0` holds the rows of `h` around row `i 0` (entry `k` of the tile is entry `k'` of `h` whenever
    `k` is in the tile's row `y 0`, `k'` in row `i 0`, same column) and `x1` is `W`, then the tile product at
    `y` is the whole product at `i`: both are the sum over the 16 columns of that one row against one column of `W`. -/
theorem matmul_tile_eq (h : FVec Ideal S200000x16 .f32) (W : FVec Ideal S16x16 .f32)
    (x0 : FVec Ideal S2000x16 .f32) (x1 : FVec Ideal S16x16 .f32) (y : S2000x16.Idx) (i : S200000x16.Idx)
    (hx0 : ∀ (k : S2000x16.Idx) (k' : S200000x16.Idx), (k 0).val = (y 0).val → (k' 0).val = (i 0).val → (k' 1).val = (k 1).val → x0 k = h k')
    (hx1 : x1 = W) (hcol : (i 1).val = (y 1).val) :
    matmul Dt none x0 x1 (constant S2000x16 .f32 0x00000000#32) y = Cert.NetSpec.lin16 h W i := by
  subst hx1
  refine (Ideal.matmul_constant_zero_apply Dt none x0 x1 y).trans ?_
  unfold Cert.NetSpec.lin16
  simp only [Host.dotGeneral]
  refine Eq.trans ?_ (Ideal.dotGeneral_apply Dw none _ h x1 i).symm
  refine Finset.sum_congr rfl fun q _ => ?_
  have e0 : x0 (Dt.lhsIdx y q) = h (Dw.lhsIdx i q) :=
    hx0 _ _ (Dt_lhs_0 y q) (Dw_lhs_0 i q) ((Dw_lhs_1 i q).trans (Dt_lhs_1 y q).symm)
  have e1 : Dt.rhsIdx y q = Dw.rhsIdx i q := funext fun a => Fin.ext (by
    match a with
    | ⟨0, _⟩ => exact (Dt_rhs_0 y q).trans (Dw_rhs_0 i q).symm
    | ⟨1, _⟩ => exact (Dt_rhs_1 y q).trans (hcol.symm.trans (Dw_rhs_1 i q).symm))
  rw [e0, e1]

/-- The linear layer's payload is that tile product: the two roundings and the shape casts are the identity. -/
theorem k2_pay1_eq (x0 : FVec Ideal S2000x16 .f32) (x1 : FVec Ideal S16x16 .f32) :
    k2_pay1 x0 x1 = matmul Dt none x0 x1 (constant S2000x16 .f32 0x00000000#32) := by
  unfold k2_pay1
  simp only [shapeCast_self]
  rfl

/-! ## Region 2: the second layer's linear map -/

/-- The printed index maps over the grid: the feature window and the output window sit at the same row block, the
    weight window at the one block there is. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 99 :=
  (by decide +kernel : ∀ t : Fin grid2.N, _)

/-- Every one of the 100 row blocks is some point's. -/
theorem idx_onto2 : ∀ q0 : Fin 100, ∃ t : Fin cfg2.N, win2_2.index t = ![q0.val, 0] :=
  (by decide +kernel : ∀ q0 : Fin 100, ∃ t : Fin grid2.N, win2_2.index t = ![q0.val, 0])

/-- What point `t` writes back is row block `t` of the whole product of the arrays the region finds. -/
theorem flushed2_eq (V : (c : Dev nD) → (b : Ref sig .tc) → Buf (Elt Ideal) ((c : Thread nD τ).loc b)) (c : Dev nD) (t : Fin cfg2.N) :
    (dat2 V c).flushed 2 t = ((cfg2.win 2).blk t).view.read (Elt Ideal)
      (Cert.NetSpec.lin16 (V c main_v50) (V c main_v52)) := by
  show (cfg2.win 2).cut (grid2.coords t) ((dat2 V c).after 2 t) = _
  rw [after2_2]
  unfold out2_2
  rw [View.canon_unit_zero zero_off]
  simp only [View.ld_unit_zero (S := S2000x16) zero_off, View.ld_unit_zero (S := S16x16) zero_off]
  rw [k2_pay1_eq]
  obtain ⟨e0, e1, e2, e3, e4, e5⟩ := idx_facts2 t
  funext y
  refine matmul_tile_eq (V c main_v50) (V c main_v52) (iblk2 V c 0 t) (iblk2 V c 1 t) y (((cfg2.win 2).blk t).view.emb y) ?_ ?_ ?_
  · intro k k' hk hk' hc
    show V c main_v50 (((cfg2.win 0).blk t).view.emb k) = V c main_v50 k'
    refine congrArg (V c main_v50) (funext fun a => Fin.ext ?_)
    match a with
    | ⟨0, _⟩ =>
      have h1 : (k' 0).val = win2_2.index t (0 : Fin 2) * 2000 + 1 * (y 0).val := hk'
      show win2_0.index t (0 : Fin 2) * 2000 + 1 * (k 0).val = (k' 0).val
      omega
    | ⟨1, _⟩ =>
      show win2_0.index t (1 : Fin 2) * 16 + 1 * (k 1).val = (k' 1).val
      omega
  · funext k
    show V c main_v52 (((cfg2.win 1).blk t).view.emb k) = V c main_v52 k
    refine congrArg (V c main_v52) (funext fun a => Fin.ext ?_)
    match a with
    | ⟨0, _⟩ => show win2_1.index t (0 : Fin 2) * 16 + 1 * (k 0).val = (k 0).val; omega
    | ⟨1, _⟩ => show win2_1.index t (1 : Fin 2) * 16 + 1 * (k 1).val = (k 1).val; omega
  · show win2_2.index t (1 : Fin 2) * 16 + 1 * (y 1).val = (y 1).val
    omega

/-- An index of the output is in point `t`'s block iff each coordinate is in the block's range on its axis. -/
theorem mem_blk2 (t : Fin cfg2.N) (i : S200000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v53).slice (win2_2.rect t)).set ↔ _
  rw [View.set_slice_whole, Rect.mem_set_unit]
  exact Iff.rfl

/-- Row `r` lies in the block of the point whose row block is `r / 2000`. -/
theorem cover2 (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- REGION 2 as a whole: its output array ends at the whole product of the two arrays it finds. -/
theorem region2_value (V : (c : Dev nD) → (b : Ref sig .tc) → Buf (Elt Ideal) ((c : Thread nD τ).loc b)) (c : Dev nD) :
    (dat2 V c).arrAt 2 cfg2.N = Cert.NetSpec.lin16 (V c main_v50) (V c main_v52) :=
  (dat2 V c).arrAt_eq_of_cover 2 _ (fun t _ => flushed2_eq V c t) cover2

end Cert.KernelIdeal.RegionValue

end
-- ==== Proof.Lin1.lean ====
/-
  The first layer's linear map. Each node has ONE input feature, so the features are a column x : [200000, 1] and
  the weights a row w : [1, 16]; the product x . w is the outer product, entry (r, j) = x[r, 0] * w[0, j], a sum
  over the single contraction index. The kernel cuts the column into 100 blocks of 2000 rows and multiplies each
  block by the whole row; row r of the output lies in exactly one block, and its entries read only row r of x, so
  the tiles' products are the rows of the whole product. The rounding of both operands before the product is the
  identity at the ideal instance.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import proofs.«130611_j3504693313558_2_alg».proof.Proof.Lin16
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-! ## The operand indices of the two outer products, coordinate by coordinate -/

/-- The tile product [2000,1] x [1,16]. -/
abbrev Et := dot_S2000x1_S1x16_S2000x16_1_0_0_1_n_n
/-- The whole product [200000,1] x [1,16]. -/
abbrev Ew := Cert.ReferenceIdeal.dot_S200000x1_S1x16_S200000x16_1_0_0_1_n_n

theorem Et_lhs_0 (i : S2000x16.Idx) (q : Et.contr.Idx) : (Et.lhsIdx i q 0).val = (i 0).val := by
  unfold DotDims.lhsIdx
  rw [dif_neg (show ¬(0 : Fin S2000x1.rank) ∈ Et.lhsBatch by decide), dif_pos (show (0 : Fin S2000x1.rank) ∈ Et.lhsNonContracting by decide)]
  rfl
theorem Et_lhs_1 (i : S2000x16.Idx) (q : Et.contr.Idx) : (Et.lhsIdx i q 1).val = (q ⟨0, by decide⟩).val :=
  Et.lhsIdx_val_of_single rfl i q
theorem Et_rhs_0 (i : S2000x16.Idx) (q : Et.contr.Idx) : (Et.rhsIdx i q 0).val = (q ⟨0, by decide⟩).val :=
  Et.rhsIdx_val_of_single rfl i q
theorem Et_rhs_1 (i : S2000x16.Idx) (q : Et.contr.Idx) : (Et.rhsIdx i q 1).val = (i 1).val := by
  unfold DotDims.rhsIdx
  rw [dif_neg (show ¬(1 : Fin S1x16.rank) ∈ Et.rhsBatch by decide), dif_pos (show (1 : Fin S1x16.rank) ∈ Et.rhsNonContracting by decide)]
  rfl

theorem Ew_lhs_0 (i : S200000x16.Idx) (q : Ew.contr.Idx) : (Ew.lhsIdx i q 0).val = (i 0).val := by
  unfold DotDims.lhsIdx
  rw [dif_neg (show ¬(0 : Fin S200000x1.rank) ∈ Ew.lhsBatch by decide), dif_pos (show (0 : Fin S200000x1.rank) ∈ Ew.lhsNonContracting by decide)]
  rfl
theorem Ew_lhs_1 (i : S200000x16.Idx) (q : Ew.contr.Idx) : (Ew.lhsIdx i q 1).val = (q ⟨0, by decide⟩).val :=
  Ew.lhsIdx_val_of_single rfl i q
theorem Ew_rhs_0 (i : S200000x16.Idx) (q : Ew.contr.Idx) : (Ew.rhsIdx i q 0).val = (q ⟨0, by decide⟩).val :=
  Ew.rhsIdx_val_of_single rfl i q
theorem Ew_rhs_1 (i : S200000x16.Idx) (q : Ew.contr.Idx) : (Ew.rhsIdx i q 1).val = (i 1).val := by
  unfold DotDims.rhsIdx
  rw [dif_neg (show ¬(1 : Fin S1x16.rank) ∈ Ew.rhsBatch by decide), dif_pos (show (1 : Fin S1x16.rank) ∈ Ew.rhsNonContracting by decide)]
  rfl

/-! ## One entry of a tile's outer product is the whole outer product's entry in the same row -/

/-- If the tile `x0` holds the rows of the column `x` around row `i 0` and `x1` is the weight row `w`, the tile
    product at `y` is the whole product at `i`: both are the one-term sum x[row, 0] * w[0, column]. -/
theorem outer_tile_eq (x : FVec Ideal S200000x1 .f32) (w : FVec Ideal S1x16 .f32)
    (x0 : FVec Ideal S2000x1 .f32) (x1 : FVec Ideal S1x16 .f32) (y : S2000x16.Idx) (i : S200000x16.Idx)
    (hx0 : ∀ (k : S2000x1.Idx) (k' : S200000x1.Idx), (k 0).val = (y 0).val → (k' 0).val = (i 0).val → (k' 1).val = (k 1).val → x0 k = x k')
    (hx1 : x1 = w) (hcol : (i 1).val = (y 1).val) :
    matmul Et none x0 x1 (constant S2000x16 .f32 0x00000000#32) y = Cert.NetSpec.lin1 x w i := by
  subst hx1
  refine (Ideal.matmul_constant_zero_apply Et none x0 x1 y).trans ?_
  unfold Cert.NetSpec.lin1
  simp only [Host.dotGeneral]
  refine Eq.trans ?_ (Ideal.dotGeneral_apply Ew none _ x x1 i).symm
  refine Finset.sum_congr rfl fun q _ => ?_
  have e0 : x0 (Et.lhsIdx y q) = x (Ew.lhsIdx i q) :=
    hx0 _ _ (Et_lhs_0 y q) (Ew_lhs_0 i q) ((Ew_lhs_1 i q).trans (Et_lhs_1 y q).symm)
  have e1 : Et.rhsIdx y q = Ew.rhsIdx i q := funext fun a => Fin.ext (by
    match a with
    | ⟨0, _⟩ => exact (Et_rhs_0 y q).trans (Ew_rhs_0 i q).symm
    | ⟨1, _⟩ => exact (Et_rhs_1 y q).trans (hcol.symm.trans (Ew_rhs_1 i q).symm))
  rw [e0, e1]

/-- The first layer's payload is that tile product: the two roundings are the identity. -/
theorem k0_pay1_eq (x0 : FVec Ideal S2000x1 .f32) (x1 : FVec Ideal S1x16 .f32) :
    k0_pay1 x0 x1 = matmul Et none x0 x1 (constant S2000x16 .f32 0x00000000#32) := by
  unfold k0_pay1
  rfl

/-! ## Region 0: the first layer's linear map -/

/-- The printed index maps over the grid: the feature column's window and the output window sit at the same row
    block, the weight row's window at the one block there is. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 99 :=
  (by decide +kernel : ∀ t : Fin grid0.N, _)

/-- Every one of the 100 row blocks is some point's. -/
theorem idx_onto0 : ∀ q0 : Fin 100, ∃ t : Fin cfg0.N, win0_2.index t = ![q0.val, 0] :=
  (by decide +kernel : ∀ q0 : Fin 100, ∃ t : Fin grid0.N, win0_2.index t = ![q0.val, 0])

/-- What point `t` writes back is row block `t` of the whole outer product of the arrays the region finds. -/
theorem flushed0_eq (V : (c : Dev nD) → (b : Ref sig .tc) → Buf (Elt Ideal) ((c : Thread nD τ).loc b)) (c : Dev nD) (t : Fin cfg0.N) :
    (dat0 V c).flushed 2 t = ((cfg0.win 2).blk t).view.read (Elt Ideal)
      (Cert.NetSpec.lin1 (V c main_arg0) (V c main_arg4)) := by
  show (cfg0.win 2).cut (grid0.coords t) ((dat0 V c).after 2 t) = _
  rw [after0_2]
  unfold out0_2
  rw [View.canon_unit_zero zero_off]
  simp only [View.ld_unit_zero (S := S2000x1) zero_off, View.ld_unit_zero (S := S1x16) zero_off]
  rw [k0_pay1_eq]
  obtain ⟨e0, e1, e2, e3, e4, e5⟩ := idx_facts0 t
  funext y
  refine outer_tile_eq (V c main_arg0) (V c main_arg4) (iblk0 V c 0 t) (iblk0 V c 1 t) y (((cfg0.win 2).blk t).view.emb y) ?_ ?_ ?_
  · intro k k' hk hk' hc
    show V c main_arg0 (((cfg0.win 0).blk t).view.emb k) = V c main_arg0 k'
    refine congrArg (V c main_arg0) (funext fun a => Fin.ext ?_)
    match a with
    | ⟨0, _⟩ =>
      have h1 : (k' 0).val = win0_2.index t (0 : Fin 2) * 2000 + 1 * (y 0).val := hk'
      show win0_0.index t (0 : Fin 2) * 2000 + 1 * (k 0).val = (k' 0).val
      omega
    | ⟨1, _⟩ =>
      show win0_0.index t (1 : Fin 2) * 1 + 1 * (k 1).val = (k' 1).val
      omega
  · funext k
    show V c main_arg4 (((cfg0.win 1).blk t).view.emb k) = V c main_arg4 k
    refine congrArg (V c main_arg4) (funext fun a => Fin.ext ?_)
    match a with
    | ⟨0, _⟩ => show win0_1.index t (0 : Fin 2) * 1 + 1 * (k 0).val = (k 0).val; omega
    | ⟨1, _⟩ => show win0_1.index t (1 : Fin 2) * 16 + 1 * (k 1).val = (k 1).val; omega
  · show win0_2.index t (1 : Fin 2) * 16 + 1 * (y 1).val = (y 1).val
    omega

/-- An index of the output is in point `t`'s block iff each coordinate is in the block's range on its axis. -/
theorem mem_blk0 (t : Fin cfg0.N) (i : S200000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v28).slice (win0_2.rect t)).set ↔ _
  rw [View.set_slice_whole, Rect.mem_set_unit]
  exact Iff.rfl

/-- Row `r` lies in the block of the point whose row block is `r / 2000`. -/
theorem cover0 (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- REGION 0 as a whole: its output array ends at the whole outer product of the two arrays it finds. -/
theorem region0_value (V : (c : Dev nD) → (b : Ref sig .tc) → Buf (Elt Ideal) ((c : Thread nD τ).loc b)) (c : Dev nD) :
    (dat0 V c).arrAt 2 cfg0.N = Cert.NetSpec.lin1 (V c main_arg0) (V c main_arg4) :=
  (dat0 V c).arrAt_eq_of_cover 2 _ (fun t _ => flushed0_eq V c t) cover0

end Cert.KernelIdeal.RegionValue

end
-- ==== Proof.Combine.lean ====
/-
  The combine step of each of the three layers, tile by tile against the whole. The node arrays [200000, 16] (the
  aggregated messages agg, the layer's own map hw) and the self-coefficient column s : [200000, 1] are cut into 100
  row blocks of 2000 rows; grid point t takes block t of each, the whole bias row b : [1, 16], the whole weight
  matrix lw : [16, 16] and the whole bias row lb : [1, 16], and writes
      max(agg + s * hw + b, 0) . lw + lb
  of its block back as row block t of the output. Row r of the output therefore holds, in column j,
      sum over k of max(agg[r, k] + s[r] * hw[r, k] + b[k], 0) * lw[k, j]  +  lb[j],
  which is exactly the entry of the same expression on the whole arrays: the value before the product is pointwise
  and reads only row r, the product sums along that one row, the biases read only the column, and row r lies in
  exactly one block (t = r / 2000). At the ideal instance the rounding of both operands before the product is the
  identity, so nothing else happens.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import proofs.«130611_j3504693313558_2_alg».proof.Proof.Lin16
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-! ## The combine step: aggregation plus self term plus bias, rectified, then the layer's linear map and its bias -/

/-- A column (one value per row) spread over the 16 features. The tile's spread column at entry `k` and the whole
    array's spread column at entry `k'` both read the column at the entry's row, so they agree whenever the tile's
    column holds the whole column's values on the rows in question. -/
theorem spread_col_eq (s : FVec Ideal Cert.ReferenceIdeal.S200000x1 .f32) (x1 : FVec Ideal S2000x1 .f32)
    (hb : S2000x1.Broadcasts S2000x16)
    (hs : Cert.ReferenceIdeal.S200000x1.BroadcastsInDim Cert.ReferenceIdeal.S200000x16 (![0, 1] : Fin 2 → Fin Cert.ReferenceIdeal.S200000x16.rank))
    (k : S2000x16.Idx) (k' : Cert.ReferenceIdeal.S200000x16.Idx)
    (h1 : ∀ (m : S2000x1.Idx) (m' : Cert.ReferenceIdeal.S200000x1.Idx), (m 0).val = (k 0).val → (m' 0).val = (k' 0).val → x1 m = s m') :
    broadcastTo S2000x16 x1 hb k = broadcastInDim Cert.ReferenceIdeal.S200000x16 ![0, 1] hs s k' := by
  unfold broadcastTo broadcastInDim
  exact h1 _ _ rfl rfl

/-- A row `[1,16]` spread over all rows: the tile's spread row at `k` and the whole array's at `k'` both read the row
    at the entry's column, so they agree when the two entries are in the same column. -/
theorem spread_row_eq (b : FVec Ideal Cert.ReferenceIdeal.S1x16 .f32)
    (hb : S1x16.Broadcasts S2000x16)
    (hs : Cert.ReferenceIdeal.S1x16.BroadcastsInDim Cert.ReferenceIdeal.S200000x16 (![0, 1] : Fin 2 → Fin Cert.ReferenceIdeal.S200000x16.rank))
    (k : S2000x16.Idx) (k' : Cert.ReferenceIdeal.S200000x16.Idx) (hcol : (k' 1).val = (k 1).val) :
    broadcastTo S2000x16 b hb k = broadcastInDim Cert.ReferenceIdeal.S200000x16 ![0, 1] hs b k' := by
  unfold broadcastTo broadcastInDim
  refine congrArg b (funext fun a => Fin.ext ?_)
  match a with
  | ⟨0, _⟩ => rfl
  | ⟨1, _⟩ => exact hcol.symm

/-- One entry of a tile of the combine step is the whole-array entry in the same row and column. At entry `y` of the
    tile and entry `i` of the array (same column, the tile's row `y 0` being the array's row `i 0`), both sides are
    the sum over k of max(agg[r,k] + s[r] * hw[r,k] + b[k], 0) * lw[k, j], plus lb[j]: the value before the product
    is pointwise and reads only row r of each operand, the product sums along that one row, and the last bias reads
    only the column. -/
theorem combine_tile_eq (agg : FVec Ideal Cert.ReferenceIdeal.S200000x16 .f32) (s : FVec Ideal Cert.ReferenceIdeal.S200000x1 .f32)
    (hw : FVec Ideal Cert.ReferenceIdeal.S200000x16 .f32) (b : FVec Ideal Cert.ReferenceIdeal.S1x16 .f32)
    (lw : FVec Ideal Cert.ReferenceIdeal.S16x16 .f32) (lb : FVec Ideal Cert.ReferenceIdeal.S1x16 .f32)
    (x0 : FVec Ideal S2000x16 .f32) (x1 : FVec Ideal S2000x1 .f32) (x2 : FVec Ideal S2000x16 .f32)
    (x3 : FVec Ideal S1x16 .f32) (x4 : FVec Ideal S16x16 .f32) (x5 : FVec Ideal S1x16 .f32)
    (hb1 : S2000x1.Broadcasts S2000x16) (hb3 : S1x16.Broadcasts S2000x16)
    (y : S2000x16.Idx) (i : S200000x16.Idx)
    (h0 : ∀ (k : S2000x16.Idx) (k' : S200000x16.Idx), (k 0).val = (y 0).val → (k' 0).val = (i 0).val → (k' 1).val = (k 1).val → x0 k = agg k')
    (h1 : ∀ (m : S2000x1.Idx) (m' : Cert.ReferenceIdeal.S200000x1.Idx), (m 0).val = (y 0).val → (m' 0).val = (i 0).val → x1 m = s m')
    (h2 : ∀ (k : S2000x16.Idx) (k' : S200000x16.Idx), (k 0).val = (y 0).val → (k' 0).val = (i 0).val → (k' 1).val = (k 1).val → x2 k = hw k')
    (h3 : x3 = b) (h4 : x4 = lw) (h5 : x5 = lb) (hcol : (i 1).val = (y 1).val) :
    addf (matmul Dt none
        (maximumf (addf (addf x0 (mulf (broadcastTo S2000x16 x1 hb1) x2)) (broadcastTo S2000x16 x3 hb3))
          (broadcast S2000x16 (Scalar.ofBits .f32 0x00000000#32)))
        x4 (constant S2000x16 .f32 0x00000000#32)) (broadcastTo S2000x16 x5 hb3) y
      = Cert.NetSpec.combine agg s hw b lw lb i := by
  subst h3 h5
  unfold Cert.NetSpec.combine
  refine congrArg₂ (· + ·) ?_ (spread_row_eq x5 hb3 _ y i hcol)
  refine matmul_tile_eq _ lw _ x4 y i ?_ h4 hcol
  intro k k' hk hk' hc
  unfold Cert.NetSpec.relu200000
  refine congrArg₂ max ?_ rfl
  refine congrArg₂ (· + ·) (congrArg₂ (· + ·) (h0 k k' hk hk' hc) (congrArg₂ (· * ·) ?_ (h2 k k' hk hk' hc))) (spread_row_eq x3 hb3 _ k k' hc)
  exact spread_col_eq s x1 hb1 _ k k' (fun m m' hm hm' => h1 m m' (hm.trans hk) (hm'.trans hk'))

/-! ## Region 1: the first layer's combine step -/

/-- The combine kernel's payload as a plain term: at the ideal instance the identity shape casts and the two
    roundings before the product are the identity. -/
theorem k1_pay1_eq (x0 : FVec Ideal S2000x16 .f32) (x1 : FVec Ideal S2000x1 .f32) (x2 : FVec Ideal S2000x16 .f32)
    (x3 : FVec Ideal S1x16 .f32) (x4 : FVec Ideal S16x16 .f32) (x5 : FVec Ideal S1x16 .f32) :
    k1_pay1 x0 x1 x2 x3 x4 x5 = addf (matmul Dt none
        (maximumf (addf (addf x0 (mulf (broadcastTo S2000x16 x1 broadcasts_S2000x1_S2000x16) x2)) (broadcastTo S2000x16 x3 broadcasts_S1x16_S2000x16))
          (broadcast S2000x16 (Scalar.ofBits .f32 0x00000000#32)))
        x4 (constant S2000x16 .f32 0x00000000#32)) (broadcastTo S2000x16 x5 broadcasts_S1x16_S2000x16) := by
  unfold k1_pay1
  simp only [shapeCast_self]
  rfl

/-- The printed index maps over the grid: the three row-tiled inputs and the output sit at the same row block, in
    the one column block; the two bias rows and the weight matrix at the one block there is. -/
theorem idx_facts1 : ∀ t : Fin cfg1.N,
    (win1_0.index t (0 : Fin 2) = win1_6.index t (0 : Fin 2) ∧ win1_0.index t (1 : Fin 2) = 0)
    ∧ (win1_1.index t (0 : Fin 2) = win1_6.index t (0 : Fin 2) ∧ win1_1.index t (1 : Fin 2) = 0)
    ∧ (win1_2.index t (0 : Fin 2) = win1_6.index t (0 : Fin 2) ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ win1_6.index t (1 : Fin 2) = 0 ∧ win1_6.index t (0 : Fin 2) ≤ 99 :=
  (by decide +kernel : ∀ t : Fin grid1.N, _)

/-- Every one of the 100 row blocks is some point's. -/
theorem idx_onto1 : ∀ q0 : Fin 100, ∃ t : Fin cfg1.N, win1_6.index t = ![q0.val, 0] :=
  (by decide +kernel : ∀ q0 : Fin 100, ∃ t : Fin grid1.N, win1_6.index t = ![q0.val, 0])

/-- What point `t` writes back is row block `t` of the whole-array combine step of the arrays the region finds. -/
theorem flushed1_eq (V : (c : Dev nD) → (b : Ref sig .tc) → Buf (Elt Ideal) ((c : Thread nD τ).loc b)) (c : Dev nD) (t : Fin cfg1.N) :
    (dat1 V c).flushed 6 t = ((cfg1.win 6).blk t).view.read (Elt Ideal)
      (Cert.NetSpec.combine (V c main_v41) (V c main_v27) (V c main_v28) (V c main_v48) (V c main_v45) (V c main_v49)) := by
  show (cfg1.win 6).cut (grid1.coords t) ((dat1 V c).after 6 t) = _
  rw [after1_6]
  unfold out1_6
  rw [View.canon_unit_zero zero_off]
  simp only [View.ld_unit_zero (S := S2000x16) zero_off, View.ld_unit_zero (S := S2000x1) zero_off,
    View.ld_unit_zero (S := S1x16) zero_off, View.ld_unit_zero (S := S16x16) zero_off]
  rw [k1_pay1_eq]
  obtain ⟨⟨e00, e01⟩, ⟨e10, e11⟩, ⟨e20, e21⟩, ⟨e30, e31⟩, ⟨e40, e41⟩, ⟨e50, e51⟩, e61, e60⟩ := idx_facts1 t
  funext y
  refine combine_tile_eq (V c main_v41) (V c main_v27) (V c main_v28) (V c main_v48) (V c main_v45) (V c main_v49)
    (iblk1 V c 0 t) (iblk1 V c 1 t) (iblk1 V c 2 t) (iblk1 V c 3 t) (iblk1 V c 4 t) (iblk1 V c 5 t)
    broadcasts_S2000x1_S2000x16 broadcasts_S1x16_S2000x16 y (((cfg1.win 6).blk t).view.emb y) ?_ ?_ ?_ ?_ ?_ ?_ ?_
  · intro k k' hk hk' hc
    show V c main_v41 (((cfg1.win 0).blk t).view.emb k) = V c main_v41 k'
    refine congrArg (V c main_v41) (funext fun a => Fin.ext ?_)
    match a with
    | ⟨0, _⟩ =>
      have h1 : (k' 0).val = win1_6.index t (0 : Fin 2) * 2000 + 1 * (y 0).val := hk'
      show win1_0.index t (0 : Fin 2) * 2000 + 1 * (k 0).val = (k' 0).val
      omega
    | ⟨1, _⟩ =>
      show win1_0.index t (1 : Fin 2) * 16 + 1 * (k 1).val = (k' 1).val
      omega
  · intro m m' hm hm'
    show V c main_v27 (((cfg1.win 1).blk t).view.emb m) = V c main_v27 m'
    refine congrArg (V c main_v27) (funext fun a => Fin.ext ?_)
    match a with
    | ⟨0, _⟩ =>
      have h1 : (m' 0).val = win1_6.index t (0 : Fin 2) * 2000 + 1 * (y 0).val := hm'
      show win1_1.index t (0 : Fin 2) * 2000 + 1 * (m 0).val = (m' 0).val
      omega
    | ⟨1, _⟩ =>
      have h2 : (m 1).val < 1 := (m 1).isLt
      have h3 : (m' 1).val < 1 := (m' 1).isLt
      show win1_1.index t (1 : Fin 2) * 1 + 1 * (m 1).val = (m' 1).val
      omega
  · intro k k' hk hk' hc
    show V c main_v28 (((cfg1.win 2).blk t).view.emb k) = V c main_v28 k'
    refine congrArg (V c main_v28) (funext fun a => Fin.ext ?_)
    match a with
    | ⟨0, _⟩ =>
      have h1 : (k' 0).val = win1_6.index t (0 : Fin 2) * 2000 + 1 * (y 0).val := hk'
      show win1_2.index t (0 : Fin 2) * 2000 + 1 * (k 0).val = (k' 0).val
      omega
    | ⟨1, _⟩ =>
      show win1_2.index t (1 : Fin 2) * 16 + 1 * (k 1).val = (k' 1).val
      omega
  · funext k
    show V c main_v48 (((cfg1.win 3).blk t).view.emb k) = V c main_v48 k
    refine congrArg (V c main_v48) (funext fun a => Fin.ext ?_)
    match a with
    | ⟨0, _⟩ => show win1_3.index t (0 : Fin 2) * 1 + 1 * (k 0).val = (k 0).val; omega
    | ⟨1, _⟩ => show win1_3.index t (1 : Fin 2) * 16 + 1 * (k 1).val = (k 1).val; omega
  · funext k
    show V c main_v45 (((cfg1.win 4).blk t).view.emb k) = V c main_v45 k
    refine congrArg (V c main_v45) (funext fun a => Fin.ext ?_)
    match a with
    | ⟨0, _⟩ => show win1_4.index t (0 : Fin 2) * 16 + 1 * (k 0).val = (k 0).val; omega
    | ⟨1, _⟩ => show win1_4.index t (1 : Fin 2) * 16 + 1 * (k 1).val = (k 1).val; omega
  · funext k
    show V c main_v49 (((cfg1.win 5).blk t).view.emb k) = V c main_v49 k
    refine congrArg (V c main_v49) (funext fun a => Fin.ext ?_)
    match a with
    | ⟨0, _⟩ => show win1_5.index t (0 : Fin 2) * 1 + 1 * (k 0).val = (k 0).val; omega
    | ⟨1, _⟩ => show win1_5.index t (1 : Fin 2) * 16 + 1 * (k 1).val = (k 1).val; omega
  · show win1_6.index t (1 : Fin 2) * 16 + 1 * (y 1).val = (y 1).val
    omega

/-- An index of the output is in point `t`'s block iff each coordinate is in the block's range on its axis. -/
theorem mem_blk1 (t : Fin cfg1.N) (i : S200000x16.Idx) :
    i ∈ ((cfg1.win 6).blk t).view.set ↔ ∀ a : Fin 2, win1_6.index t a * S2000x16.size a ≤ (i a).val ∧ (i a).val < win1_6.index t a * S2000x16.size a + S2000x16.size a := by
  show i ∈ ((View.whole main_v50).slice (win1_6.rect t)).set ↔ _
  rw [View.set_slice_whole, Rect.mem_set_unit]
  exact Iff.rfl

/-- Row `r` lies in the block of the point whose row block is `r / 2000`. -/
theorem cover1 (i : S200000x16.Idx) : ∃ t : Fin cfg1.N, (cfg1.win 6).flush t = true ∧ i ∈ ((cfg1.win 6).blk t).view.set := by
  have hi0 : (i 0).val < 200000 := (i 0).isLt
  have hi1 : (i 1).val < 16 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 16 ≤ (i 1).val ∧ (i 1).val < win1_6.index t (1 : Fin 2) * 16 + 16; omega

/-- REGION 1 as a whole: its output array ends at the combine step, as one function of whole arrays, of the six
    arrays it finds: max(agg + s * hw + b, 0) . lw + lb. -/
theorem region1_value (V : (c : Dev nD) → (b : Ref sig .tc) → Buf (Elt Ideal) ((c : Thread nD τ).loc b)) (c : Dev nD) :
    (dat1 V c).arrAt 6 cfg1.N
      = Cert.NetSpec.combine (V c main_v41) (V c main_v27) (V c main_v28) (V c main_v48) (V c main_v45) (V c main_v49) :=
  (dat1 V c).arrAt_eq_of_cover 6 _ (fun t _ => flushed1_eq V c t) cover1

/-! ## Region 3: the second layer's combine step -/

/-- The combine kernel's payload as a plain term: at the ideal instance the identity shape casts and the two
    roundings before the product are the identity. -/
theorem k3_pay1_eq (x0 : FVec Ideal S2000x16 .f32) (x1 : FVec Ideal S2000x1 .f32) (x2 : FVec Ideal S2000x16 .f32)
    (x3 : FVec Ideal S1x16 .f32) (x4 : FVec Ideal S16x16 .f32) (x5 : FVec Ideal S1x16 .f32) :
    k3_pay1 x0 x1 x2 x3 x4 x5 = addf (matmul Dt none
        (maximumf (addf (addf x0 (mulf (broadcastTo S2000x16 x1 broadcasts_S2000x1_S2000x16) x2)) (broadcastTo S2000x16 x3 broadcasts_S1x16_S2000x16))
          (broadcast S2000x16 (Scalar.ofBits .f32 0x00000000#32)))
        x4 (constant S2000x16 .f32 0x00000000#32)) (broadcastTo S2000x16 x5 broadcasts_S1x16_S2000x16) := by
  unfold k3_pay1
  simp only [shapeCast_self]
  rfl

/-- The printed index maps over the grid: the three row-tiled inputs and the output sit at the same row block, in
    the one column block; the two bias rows and the weight matrix at the one block there is. -/
theorem idx_facts3 : ∀ t : Fin cfg3.N,
    (win3_0.index t (0 : Fin 2) = win3_6.index t (0 : Fin 2) ∧ win3_0.index t (1 : Fin 2) = 0)
    ∧ (win3_1.index t (0 : Fin 2) = win3_6.index t (0 : Fin 2) ∧ win3_1.index t (1 : Fin 2) = 0)
    ∧ (win3_2.index t (0 : Fin 2) = win3_6.index t (0 : Fin 2) ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ win3_6.index t (1 : Fin 2) = 0 ∧ win3_6.index t (0 : Fin 2) ≤ 99 :=
  (by decide +kernel : ∀ t : Fin grid3.N, _)

/-- Every one of the 100 row blocks is some point's. -/
theorem idx_onto3 : ∀ q0 : Fin 100, ∃ t : Fin cfg3.N, win3_6.index t = ![q0.val, 0] :=
  (by decide +kernel : ∀ q0 : Fin 100, ∃ t : Fin grid3.N, win3_6.index t = ![q0.val, 0])

/-- What point `t` writes back is row block `t` of the whole-array combine step of the arrays the region finds. -/
theorem flushed3_eq (V : (c : Dev nD) → (b : Ref sig .tc) → Buf (Elt Ideal) ((c : Thread nD τ).loc b)) (c : Dev nD) (t : Fin cfg3.N) :
    (dat3 V c).flushed 6 t = ((cfg3.win 6).blk t).view.read (Elt Ideal)
      (Cert.NetSpec.combine (V c main_v66) (V c main_v27) (V c main_v53) (V c main_v73) (V c main_v70) (V c main_v74)) := by
  show (cfg3.win 6).cut (grid3.coords t) ((dat3 V c).after 6 t) = _
  rw [after3_6]
  unfold out3_6
  rw [View.canon_unit_zero zero_off]
  simp only [View.ld_unit_zero (S := S2000x16) zero_off, View.ld_unit_zero (S := S2000x1) zero_off,
    View.ld_unit_zero (S := S1x16) zero_off, View.ld_unit_zero (S := S16x16) zero_off]
  rw [k3_pay1_eq]
  obtain ⟨⟨e00, e01⟩, ⟨e10, e11⟩, ⟨e20, e21⟩, ⟨e30, e31⟩, ⟨e40, e41⟩, ⟨e50, e51⟩, e61, e60⟩ := idx_facts3 t
  funext y
  refine combine_tile_eq (V c main_v66) (V c main_v27) (V c main_v53) (V c main_v73) (V c main_v70) (V c main_v74)
    (iblk3 V c 0 t) (iblk3 V c 1 t) (iblk3 V c 2 t) (iblk3 V c 3 t) (iblk3 V c 4 t) (iblk3 V c 5 t)
    broadcasts_S2000x1_S2000x16 broadcasts_S1x16_S2000x16 y (((cfg3.win 6).blk t).view.emb y) ?_ ?_ ?_ ?_ ?_ ?_ ?_
  · intro k k' hk hk' hc
    show V c main_v66 (((cfg3.win 0).blk t).view.emb k) = V c main_v66 k'
    refine congrArg (V c main_v66) (funext fun a => Fin.ext ?_)
    match a with
    | ⟨0, _⟩ =>
      have h1 : (k' 0).val = win3_6.index t (0 : Fin 2) * 2000 + 1 * (y 0).val := hk'
      show win3_0.index t (0 : Fin 2) * 2000 + 1 * (k 0).val = (k' 0).val
      omega
    | ⟨1, _⟩ =>
      show win3_0.index t (1 : Fin 2) * 16 + 1 * (k 1).val = (k' 1).val
      omega
  · intro m m' hm hm'
    show V c main_v27 (((cfg3.win 1).blk t).view.emb m) = V c main_v27 m'
    refine congrArg (V c main_v27) (funext fun a => Fin.ext ?_)
    match a with
    | ⟨0, _⟩ =>
      have h1 : (m' 0).val = win3_6.index t (0 : Fin 2) * 2000 + 1 * (y 0).val := hm'
      show win3_1.index t (0 : Fin 2) * 2000 + 1 * (m 0).val = (m' 0).val
      omega
    | ⟨1, _⟩ =>
      have h2 : (m 1).val < 1 := (m 1).isLt
      have h3 : (m' 1).val < 1 := (m' 1).isLt
      show win3_1.index t (1 : Fin 2) * 1 + 1 * (m 1).val = (m' 1).val
      omega
  · intro k k' hk hk' hc
    show V c main_v53 (((cfg3.win 2).blk t).view.emb k) = V c main_v53 k'
    refine congrArg (V c main_v53) (funext fun a => Fin.ext ?_)
    match a with
    | ⟨0, _⟩ =>
      have h1 : (k' 0).val = win3_6.index t (0 : Fin 2) * 2000 + 1 * (y 0).val := hk'
      show win3_2.index t (0 : Fin 2) * 2000 + 1 * (k 0).val = (k' 0).val
      omega
    | ⟨1, _⟩ =>
      show win3_2.index t (1 : Fin 2) * 16 + 1 * (k 1).val = (k' 1).val
      omega
  · funext k
    show V c main_v73 (((cfg3.win 3).blk t).view.emb k) = V c main_v73 k
    refine congrArg (V c main_v73) (funext fun a => Fin.ext ?_)
    match a with
    | ⟨0, _⟩ => show win3_3.index t (0 : Fin 2) * 1 + 1 * (k 0).val = (k 0).val; omega
    | ⟨1, _⟩ => show win3_3.index t (1 : Fin 2) * 16 + 1 * (k 1).val = (k 1).val; omega
  · funext k
    show V c main_v70 (((cfg3.win 4).blk t).view.emb k) = V c main_v70 k
    refine congrArg (V c main_v70) (funext fun a => Fin.ext ?_)
    match a with
    | ⟨0, _⟩ => show win3_4.index t (0 : Fin 2) * 16 + 1 * (k 0).val = (k 0).val; omega
    | ⟨1, _⟩ => show win3_4.index t (1 : Fin 2) * 16 + 1 * (k 1).val = (k 1).val; omega
  · funext k
    show V c main_v74 (((cfg3.win 5).blk t).view.emb k) = V c main_v74 k
    refine congrArg (V c main_v74) (funext fun a => Fin.ext ?_)
    match a with
    | ⟨0, _⟩ => show win3_5.index t (0 : Fin 2) * 1 + 1 * (k 0).val = (k 0).val; omega
    | ⟨1, _⟩ => show win3_5.index t (1 : Fin 2) * 16 + 1 * (k 1).val = (k 1).val; omega
  · show win3_6.index t (1 : Fin 2) * 16 + 1 * (y 1).val = (y 1).val
    omega

/-- An index of the output is in point `t`'s block iff each coordinate is in the block's range on its axis. -/
theorem mem_blk3 (t : Fin cfg3.N) (i : S200000x16.Idx) :
    i ∈ ((cfg3.win 6).blk t).view.set ↔ ∀ a : Fin 2, win3_6.index t a * S2000x16.size a ≤ (i a).val ∧ (i a).val < win3_6.index t a * S2000x16.size a + S2000x16.size a := by
  show i ∈ ((View.whole main_v75).slice (win3_6.rect t)).set ↔ _
  rw [View.set_slice_whole, Rect.mem_set_unit]
  exact Iff.rfl

/-- Row `r` lies in the block of the point whose row block is `r / 2000`. -/
theorem cover3 (i : S200000x16.Idx) : ∃ t : Fin cfg3.N, (cfg3.win 6).flush t = true ∧ i ∈ ((cfg3.win 6).blk t).view.set := by
  have hi0 : (i 0).val < 200000 := (i 0).isLt
  have hi1 : (i 1).val < 16 := (i 1).isLt
  obtain ⟨t, ht⟩ := idx_onto3 ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 16 ≤ (i 1).val ∧ (i 1).val < win3_6.index t (1 : Fin 2) * 16 + 16; omega

/-- REGION 3 as a whole: its output array ends at the combine step, as one function of whole arrays, of the six
    arrays it finds: max(agg + s * hw + b, 0) . lw + lb. -/
theorem region3_value (V : (c : Dev nD) → (b : Ref sig .tc) → Buf (Elt Ideal) ((c : Thread nD τ).loc b)) (c : Dev nD) :
    (dat3 V c).arrAt 6 cfg3.N
      = Cert.NetSpec.combine (V c main_v66) (V c main_v27) (V c main_v53) (V c main_v73) (V c main_v70) (V c main_v74) :=
  (dat3 V c).arrAt_eq_of_cover 6 _ (fun t _ => flushed3_eq V c t) cover3

/-! ## Region 5: the third layer's combine step -/

/-- The combine kernel's payload as a plain term: at the ideal instance the identity shape casts and the two
    roundings before the product are the identity. -/
theorem k5_pay1_eq (x0 : FVec Ideal S2000x16 .f32) (x1 : FVec Ideal S2000x1 .f32) (x2 : FVec Ideal S2000x16 .f32)
    (x3 : FVec Ideal S1x16 .f32) (x4 : FVec Ideal S16x16 .f32) (x5 : FVec Ideal S1x16 .f32) :
    k5_pay1 x0 x1 x2 x3 x4 x5 = addf (matmul Dt none
        (maximumf (addf (addf x0 (mulf (broadcastTo S2000x16 x1 broadcasts_S2000x1_S2000x16) x2)) (broadcastTo S2000x16 x3 broadcasts_S1x16_S2000x16))
          (broadcast S2000x16 (Scalar.ofBits .f32 0x00000000#32)))
        x4 (constant S2000x16 .f32 0x00000000#32)) (broadcastTo S2000x16 x5 broadcasts_S1x16_S2000x16) := by
  unfold k5_pay1
  simp only [shapeCast_self]
  rfl

/-- The printed index maps over the grid: the three row-tiled inputs and the output sit at the same row block, in
    the one column block; the two bias rows and the weight matrix at the one block there is. -/
theorem idx_facts5 : ∀ t : Fin cfg5.N,
    (win5_0.index t (0 : Fin 2) = win5_6.index t (0 : Fin 2) ∧ win5_0.index t (1 : Fin 2) = 0)
    ∧ (win5_1.index t (0 : Fin 2) = win5_6.index t (0 : Fin 2) ∧ win5_1.index t (1 : Fin 2) = 0)
    ∧ (win5_2.index t (0 : Fin 2) = win5_6.index t (0 : Fin 2) ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ win5_6.index t (1 : Fin 2) = 0 ∧ win5_6.index t (0 : Fin 2) ≤ 99 :=
  (by decide +kernel : ∀ t : Fin grid5.N, _)

/-- Every one of the 100 row blocks is some point's. -/
theorem idx_onto5 : ∀ q0 : Fin 100, ∃ t : Fin cfg5.N, win5_6.index t = ![q0.val, 0] :=
  (by decide +kernel : ∀ q0 : Fin 100, ∃ t : Fin grid5.N, win5_6.index t = ![q0.val, 0])

/-- What point `t` writes back is row block `t` of the whole-array combine step of the arrays the region finds. -/
theorem flushed5_eq (V : (c : Dev nD) → (b : Ref sig .tc) → Buf (Elt Ideal) ((c : Thread nD τ).loc b)) (c : Dev nD) (t : Fin cfg5.N) :
    (dat5 V c).flushed 6 t = ((cfg5.win 6).blk t).view.read (Elt Ideal)
      (Cert.NetSpec.combine (V c main_v91) (V c main_v27) (V c main_v78) (V c main_v98) (V c main_v95) (V c main_v99)) := by
  show (cfg5.win 6).cut (grid5.coords t) ((dat5 V c).after 6 t) = _
  rw [after5_6]
  unfold out5_6
  rw [View.canon_unit_zero zero_off]
  simp only [View.ld_unit_zero (S := S2000x16) zero_off, View.ld_unit_zero (S := S2000x1) zero_off,
    View.ld_unit_zero (S := S1x16) zero_off, View.ld_unit_zero (S := S16x16) zero_off]
  rw [k5_pay1_eq]
  obtain ⟨⟨e00, e01⟩, ⟨e10, e11⟩, ⟨e20, e21⟩, ⟨e30, e31⟩, ⟨e40, e41⟩, ⟨e50, e51⟩, e61, e60⟩ := idx_facts5 t
  funext y
  refine combine_tile_eq (V c main_v91) (V c main_v27) (V c main_v78) (V c main_v98) (V c main_v95) (V c main_v99)
    (iblk5 V c 0 t) (iblk5 V c 1 t) (iblk5 V c 2 t) (iblk5 V c 3 t) (iblk5 V c 4 t) (iblk5 V c 5 t)
    broadcasts_S2000x1_S2000x16 broadcasts_S1x16_S2000x16 y (((cfg5.win 6).blk t).view.emb y) ?_ ?_ ?_ ?_ ?_ ?_ ?_
  · intro k k' hk hk' hc
    show V c main_v91 (((cfg5.win 0).blk t).view.emb k) = V c main_v91 k'
    refine congrArg (V c main_v91) (funext fun a => Fin.ext ?_)
    match a with
    | ⟨0, _⟩ =>
      have h1 : (k' 0).val = win5_6.index t (0 : Fin 2) * 2000 + 1 * (y 0).val := hk'
      show win5_0.index t (0 : Fin 2) * 2000 + 1 * (k 0).val = (k' 0).val
      omega
    | ⟨1, _⟩ =>
      show win5_0.index t (1 : Fin 2) * 16 + 1 * (k 1).val = (k' 1).val
      omega
  · intro m m' hm hm'
    show V c main_v27 (((cfg5.win 1).blk t).view.emb m) = V c main_v27 m'
    refine congrArg (V c main_v27) (funext fun a => Fin.ext ?_)
    match a with
    | ⟨0, _⟩ =>
      have h1 : (m' 0).val = win5_6.index t (0 : Fin 2) * 2000 + 1 * (y 0).val := hm'
      show win5_1.index t (0 : Fin 2) * 2000 + 1 * (m 0).val = (m' 0).val
      omega
    | ⟨1, _⟩ =>
      have h2 : (m 1).val < 1 := (m 1).isLt
      have h3 : (m' 1).val < 1 := (m' 1).isLt
      show win5_1.index t (1 : Fin 2) * 1 + 1 * (m 1).val = (m' 1).val
      omega
  · intro k k' hk hk' hc
    show V c main_v78 (((cfg5.win 2).blk t).view.emb k) = V c main_v78 k'
    refine congrArg (V c main_v78) (funext fun a => Fin.ext ?_)
    match a with
    | ⟨0, _⟩ =>
      have h1 : (k' 0).val = win5_6.index t (0 : Fin 2) * 2000 + 1 * (y 0).val := hk'
      show win5_2.index t (0 : Fin 2) * 2000 + 1 * (k 0).val = (k' 0).val
      omega
    | ⟨1, _⟩ =>
      show win5_2.index t (1 : Fin 2) * 16 + 1 * (k 1).val = (k' 1).val
      omega
  · funext k
    show V c main_v98 (((cfg5.win 3).blk t).view.emb k) = V c main_v98 k
    refine congrArg (V c main_v98) (funext fun a => Fin.ext ?_)
    match a with
    | ⟨0, _⟩ => show win5_3.index t (0 : Fin 2) * 1 + 1 * (k 0).val = (k 0).val; omega
    | ⟨1, _⟩ => show win5_3.index t (1 : Fin 2) * 16 + 1 * (k 1).val = (k 1).val; omega
  · funext k
    show V c main_v95 (((cfg5.win 4).blk t).view.emb k) = V c main_v95 k
    refine congrArg (V c main_v95) (funext fun a => Fin.ext ?_)
    match a with
    | ⟨0, _⟩ => show win5_4.index t (0 : Fin 2) * 16 + 1 * (k 0).val = (k 0).val; omega
    | ⟨1, _⟩ => show win5_4.index t (1 : Fin 2) * 16 + 1 * (k 1).val = (k 1).val; omega
  · funext k
    show V c main_v99 (((cfg5.win 5).blk t).view.emb k) = V c main_v99 k
    refine congrArg (V c main_v99) (funext fun a => Fin.ext ?_)
    match a with
    | ⟨0, _⟩ => show win5_5.index t (0 : Fin 2) * 1 + 1 * (k 0).val = (k 0).val; omega
    | ⟨1, _⟩ => show win5_5.index t (1 : Fin 2) * 16 + 1 * (k 1).val = (k 1).val; omega
  · show win5_6.index t (1 : Fin 2) * 16 + 1 * (y 1).val = (y 1).val
    omega

/-- An index of the output is in point `t`'s block iff each coordinate is in the block's range on its axis. -/
theorem mem_blk5 (t : Fin cfg5.N) (i : S200000x16.Idx) :
    i ∈ ((cfg5.win 6).blk t).view.set ↔ ∀ a : Fin 2, win5_6.index t a * S2000x16.size a ≤ (i a).val ∧ (i a).val < win5_6.index t a * S2000x16.size a + S2000x16.size a := by
  show i ∈ ((View.whole main_v100).slice (win5_6.rect t)).set ↔ _
  rw [View.set_slice_whole, Rect.mem_set_unit]
  exact Iff.rfl

/-- Row `r` lies in the block of the point whose row block is `r / 2000`. -/
theorem cover5 (i : S200000x16.Idx) : ∃ t : Fin cfg5.N, (cfg5.win 6).flush t = true ∧ i ∈ ((cfg5.win 6).blk t).view.set := by
  have hi0 : (i 0).val < 200000 := (i 0).isLt
  have hi1 : (i 1).val < 16 := (i 1).isLt
  obtain ⟨t, ht⟩ := idx_onto5 ⟨(i 0).val / 2000, by omega⟩
  have q0 : win5_6.index t (0 : Fin 2) = (i 0).val / 2000 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 16 ≤ (i 1).val ∧ (i 1).val < win5_6.index t (1 : Fin 2) * 16 + 16; omega

/-- REGION 5 as a whole: its output array ends at the combine step, as one function of whole arrays, of the six
    arrays it finds: max(agg + s * hw + b, 0) . lw + lb. -/
theorem region5_value (V : (c : Dev nD) → (b : Ref sig .tc) → Buf (Elt Ideal) ((c : Thread nD τ).loc b)) (c : Dev nD) :
    (dat5 V c).arrAt 6 cfg5.N
      = Cert.NetSpec.combine (V c main_v91) (V c main_v27) (V c main_v78) (V c main_v98) (V c main_v95) (V c main_v99) :=
  (dat5 V c).arrAt_eq_of_cover 6 _ (fun t _ => flushed5_eq V c t) cover5

end Cert.KernelIdeal.RegionValue

end
-- ==== Proof.ChainB.lean ====
/-
  Boundaries 2 to 6: the first layer. The first launch leaves the outer product of the node features with the
  first weight row (the reference's first dot product). The next host stretch is the reference's own aggregation
  of that product over the edges (gather by source, scale by the edge normalisation, scatter-add by destination) and
  the layer's bias row, weight matrix and second bias row cut out of the stacked arguments; a bias row reaches the
  kernel as a [1,16] reshape where the reference broadcasts the same 16 values along a new leading axis, which is
  the same array. The second launch combines them (aggregation + self term + bias, rectifier, linear map, bias):
  the reference's stage of the same name. Then the second layer's weight matrix and its linear map.
-/
import proofs.«130611_j3504693313558_2_alg».proof.Proof.Keep
import proofs.«130611_j3504693313558_2_alg».proof.Proof.Gen.ReferenceIdeal.Read
import proofs.«130611_j3504693313558_2_alg».proof.Proof.NetSpec
import proofs.«130611_j3504693313558_2_alg».proof.Proof.LibReshape
import proofs.«130611_j3504693313558_2_alg».proof.Proof.ChainA
import proofs.«130611_j3504693313558_2_alg».proof.Proof.Lin1
import proofs.«130611_j3504693313558_2_alg».proof.Proof.Lin16
import proofs.«130611_j3504693313558_2_alg».proof.Proof.Combine

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)
open Cert.KernelIdeal.RegionValue

/-! ## Boundary 2: after the first launch -/

theorem W2_v1 : W2 m ρ c (Proc.devRef .tc main_v1) = val_main_v1 (F := Ideal) (m ((c : Thread nD τ).loc main_arg1)) :=
  (W2_early m ρ c main_v1 ⟨by decide, by decide⟩).trans (W1_v1 m ρ c)
theorem W2_v3 : W2 m ρ c (Proc.devRef .tc main_v3) = val_main_v3 (F := Ideal) (m ((c : Thread nD τ).loc main_arg1)) :=
  (W2_early m ρ c main_v3 ⟨by decide, by decide⟩).trans (W1_v3 m ρ c)
theorem W2_v25 : W2 m ρ c (Proc.devRef .tc main_v25) = val_main_v25 (F := Ideal) (m ((c : Thread nD τ).loc main_arg1)) (m ((c : Thread nD τ).loc main_arg3)) :=
  (W2_early m ρ c main_v25 ⟨by decide, by decide⟩).trans (W1_v25 m ρ c)
theorem W2_v27 : W2 m ρ c (Proc.devRef .tc main_v27) = val_main_v27 (F := Ideal) (m ((c : Thread nD τ).loc main_arg1)) (m ((c : Thread nD τ).loc main_arg3)) :=
  (W2_of_ne m ρ c main_v27 (by decide)).trans (W1_v27 m ρ c)

/-- The first launch's output is the reference's first dot product. -/
theorem W2_v28 : W2 m ρ c (Proc.devRef .tc main_v28) = val_main_v30 (F := Ideal) (m ((c : Thread nD τ).loc main_arg0)) (m ((c : Thread nD τ).loc main_arg4)) := by
  refine (W2_arr m ρ c 2).trans ((region0_value (V1 m ρ) c).trans ?_)
  rw [show V1 m ρ c main_arg0 = (m ((c : Thread nD τ).loc main_arg0)) from W1_arg m ρ c main_arg0 (by decide),
    show V1 m ρ c main_arg4 = (m ((c : Thread nD τ).loc main_arg4)) from W1_arg m ρ c main_arg4 (by decide)]
  rfl

/-! ## Boundary 3: after the second host stretch -/

theorem W3_v27 : W3 m ρ c (Proc.devRef .tc main_v27) = val_main_v27 (F := Ideal) (m ((c : Thread nD τ).loc main_arg1)) (m ((c : Thread nD τ).loc main_arg3)) :=
  (host1_keeps (W2 m ρ c) main_v27 (by decide)).trans (W2_v27 m ρ c)
theorem W3_v28 : W3 m ρ c (Proc.devRef .tc main_v28) = val_main_v30 (F := Ideal) (m ((c : Thread nD τ).loc main_arg0)) (m ((c : Thread nD τ).loc main_arg4)) :=
  (host1_keeps (W2 m ρ c) main_v28 (by decide)).trans (W2_v28 m ρ c)

set_option maxHeartbeats 4000000 in
/-- The first layer's aggregation over the edges. -/
theorem W3_v41 : W3 m ρ c (Proc.devRef .tc main_v41) = val_main_v43 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v41) = _
  simp only [hostOps1]
  after_results_simp
  rw [W2_v3 m ρ c, W2_v25 m ρ c, W2_v1 m ρ c, W2_v28 m ρ c]
  rfl

/-- The first layer's weight matrix. -/
theorem W3_v45 : W3 m ρ c (Proc.devRef .tc main_v45) = val_main_v52 (F := Ideal) (m ((c : Thread nD τ).loc main_arg7)) := by
  show StableHlo.after hostOps1 (W2 m ρ c) (Proc.devRef .tc main_v45) = _
  simp only [hostOps1]
  after_results_simp
  rw [(W2_arg m ρ c main_arg7 ⟨by decide, by decide, by decide⟩)]
  rfl

/-- The first layer's bias row: the [1,16] reshape of the 16 values is their broadcast along a new leading axis. -/
theorem W3_v48 : W3 m ρ c (Proc.devRef .tc main_v48) = val_main_v47 (F := Ideal) (m ((c : Thread nD τ).loc main_arg6)) := by
  show StableHlo.after hostOps1 (W2 m ρ c) (Proc.devRef .tc main_v48) = _
  simp only [hostOps1]
  after_results_simp
  rw [(W2_arg m ρ c main_arg6 ⟨by decide, by decide, by decide⟩)]
  exact (Cert.LibReshape.shapeCast_eq_row _ _ Cert.ReferenceIdeal.Gen.bcast_S16_S1x16_1).trans rfl

/-- The first layer's second bias row, likewise. -/
theorem W3_v49 : W3 m ρ c (Proc.devRef .tc main_v49) = val_main_v56 (F := Ideal) (m ((c : Thread nD τ).loc main_arg8)) := by
  show StableHlo.after hostOps1 (W2 m ρ c) (Proc.devRef .tc main_v49) = _
  simp only [hostOps1]
  after_results_simp
  rw [(W2_arg m ρ c main_arg8 ⟨by decide, by decide, by decide⟩)]
  exact (Cert.LibReshape.shapeCast_eq_row _ _ Cert.ReferenceIdeal.Gen.bcast_S16_S1x16_1).trans rfl

/-! ## Boundary 4: after the second launch -/

set_option maxHeartbeats 4000000 in
/-- The first layer's output features. -/
theorem W4_v50 : W4 m ρ c (Proc.devRef .tc main_v50)
    = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) := by
  refine (W4_arr m ρ c 6).trans ((region1_value (V3 m ρ) c).trans ?_)
  rw [show V3 m ρ c main_v41 = _ from W3_v41 m ρ c, show V3 m ρ c main_v27 = _ from W3_v27 m ρ c,
    show V3 m ρ c main_v28 = _ from W3_v28 m ρ c, show V3 m ρ c main_v48 = _ from W3_v48 m ρ c,
    show V3 m ρ c main_v45 = _ from W3_v45 m ρ c, show V3 m ρ c main_v49 = _ from W3_v49 m ρ c]
  rfl

/-! ## Boundaries 5 and 6: the second layer's weight matrix and linear map -/

theorem W5_v50 : W5 m ρ c (Proc.devRef .tc main_v50)
    = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) :=
  (host2_keeps (W4 m ρ c) main_v50 (by decide)).trans (W4_v50 m ρ c)

theorem W5_v52 : W5 m ρ c (Proc.devRef .tc main_v52) = val_main_v60 (F := Ideal) (m ((c : Thread nD τ).loc main_arg5)) := by
  show StableHlo.after hostOps2 (W4 m ρ c) (Proc.devRef .tc main_v52) = _
  simp only [hostOps2]
  after_results_simp
  rw [W4_arg m ρ c main_arg5 ⟨by decide, by decide, by decide⟩]
  rfl

set_option maxHeartbeats 4000000 in
/-- The second layer's linear map of the first layer's features. -/
theorem W6_v53 : W6 m ρ c (Proc.devRef .tc main_v53)
    = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 2).trans ((region2_value (V5 m ρ) c).trans ?_)
  rw [show V5 m ρ c main_v50 = _ from W5_v50 m ρ c, show V5 m ρ c main_v52 = _ from W5_v52 m ρ c]
  rfl

end Cert.KernelIdeal.Boundary

end
-- ==== Proof.Lin16b.lean ====
/-
  The third layer's linear map: the same row-tiled product of the node features with a whole 16 x 16 weight matrix
  as the second layer's, on that layer's arrays. Each row of the output lies in exactly one row block and its
  entries are sums along that row, so the tiles' products are the rows of the one whole product.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import proofs.«130611_j3504693313558_2_alg».proof.Proof.Lin16
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-- The linear layer's payload is that tile product: the two roundings and the shape casts are the identity. -/
theorem k4_pay1_eq (x0 : FVec Ideal S2000x16 .f32) (x1 : FVec Ideal S16x16 .f32) :
    k4_pay1 x0 x1 = matmul Dt none x0 x1 (constant S2000x16 .f32 0x00000000#32) := by
  unfold k4_pay1
  simp only [shapeCast_self]
  rfl

/-! ## Region 4: the third layer's linear map -/

/-- The printed index maps over the grid: the feature window and the output window sit at the same row block, the
    weight window at the one block there is. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 99 :=
  (by decide +kernel : ∀ t : Fin grid4.N, _)

/-- Every one of the 100 row blocks is some point's. -/
theorem idx_onto4 : ∀ q0 : Fin 100, ∃ t : Fin cfg4.N, win4_2.index t = ![q0.val, 0] :=
  (by decide +kernel : ∀ q0 : Fin 100, ∃ t : Fin grid4.N, win4_2.index t = ![q0.val, 0])

/-- What point `t` writes back is row block `t` of the whole product of the arrays the region finds. -/
theorem flushed4_eq (V : (c : Dev nD) → (b : Ref sig .tc) → Buf (Elt Ideal) ((c : Thread nD τ).loc b)) (c : Dev nD) (t : Fin cfg4.N) :
    (dat4 V c).flushed 2 t = ((cfg4.win 2).blk t).view.read (Elt Ideal)
      (Cert.NetSpec.lin16 (V c main_v75) (V c main_v77)) := by
  show (cfg4.win 2).cut (grid4.coords t) ((dat4 V c).after 2 t) = _
  rw [after4_2]
  unfold out4_2
  rw [View.canon_unit_zero zero_off]
  simp only [View.ld_unit_zero (S := S2000x16) zero_off, View.ld_unit_zero (S := S16x16) zero_off]
  rw [k4_pay1_eq]
  obtain ⟨e0, e1, e2, e3, e4, e5⟩ := idx_facts4 t
  funext y
  refine matmul_tile_eq (V c main_v75) (V c main_v77) (iblk4 V c 0 t) (iblk4 V c 1 t) y (((cfg4.win 2).blk t).view.emb y) ?_ ?_ ?_
  · intro k k' hk hk' hc
    show V c main_v75 (((cfg4.win 0).blk t).view.emb k) = V c main_v75 k'
    refine congrArg (V c main_v75) (funext fun a => Fin.ext ?_)
    match a with
    | ⟨0, _⟩ =>
      have h1 : (k' 0).val = win4_2.index t (0 : Fin 2) * 2000 + 1 * (y 0).val := hk'
      show win4_0.index t (0 : Fin 2) * 2000 + 1 * (k 0).val = (k' 0).val
      omega
    | ⟨1, _⟩ =>
      show win4_0.index t (1 : Fin 2) * 16 + 1 * (k 1).val = (k' 1).val
      omega
  · funext k
    show V c main_v77 (((cfg4.win 1).blk t).view.emb k) = V c main_v77 k
    refine congrArg (V c main_v77) (funext fun a => Fin.ext ?_)
    match a with
    | ⟨0, _⟩ => show win4_1.index t (0 : Fin 2) * 16 + 1 * (k 0).val = (k 0).val; omega
    | ⟨1, _⟩ => show win4_1.index t (1 : Fin 2) * 16 + 1 * (k 1).val = (k 1).val; omega
  · show win4_2.index t (1 : Fin 2) * 16 + 1 * (y 1).val = (y 1).val
    omega

/-- An index of the output is in point `t`'s block iff each coordinate is in the block's range on its axis. -/
theorem mem_blk4 (t : Fin cfg4.N) (i : S200000x16.Idx) :
    i ∈ ((cfg4.win 2).blk t).view.set ↔ ∀ a : Fin 2, win4_2.index t a * S2000x16.size a ≤ (i a).val ∧ (i a).val < win4_2.index t a * S2000x16.size a + S2000x16.size a := by
  show i ∈ ((View.whole main_v78).slice (win4_2.rect t)).set ↔ _
  rw [View.set_slice_whole, Rect.mem_set_unit]
  exact Iff.rfl

/-- Row `r` lies in the block of the point whose row block is `r / 2000`. -/
theorem cover4 (i : S200000x16.Idx) : ∃ t : Fin cfg4.N, (cfg4.win 2).flush t = true ∧ i ∈ ((cfg4.win 2).blk t).view.set := by
  have hi0 : (i 0).val < 200000 := (i 0).isLt
  have hi1 : (i 1).val < 16 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 16 ≤ (i 1).val ∧ (i 1).val < win4_2.index t (1 : Fin 2) * 16 + 16; omega

/-- REGION 4 as a whole: its output array ends at the whole product of the two arrays it finds. -/
theorem region4_value (V : (c : Dev nD) → (b : Ref sig .tc) → Buf (Elt Ideal) ((c : Thread nD τ).loc b)) (c : Dev nD) :
    (dat4 V c).arrAt 2 cfg4.N = Cert.NetSpec.lin16 (V c main_v75) (V c main_v77) :=
  (dat4 V c).arrAt_eq_of_cover 2 _ (fun t _ => flushed4_eq V c t) cover4

end Cert.KernelIdeal.RegionValue

end
-- ==== Proof.ChainC.lean ====
/-
  Boundaries 6 to 12: the second and third layers. Each repeats the first layer's steps on the previous layer's
  features: the reference's aggregation over the edges of the layer's linear map (the index vectors and the edge
  normalisation still as the first host stretch left them), the layer's bias row, weight matrix and second bias
  row cut out of the stacked arguments, the combine launch, then the next layer's weight matrix and linear map. The
  self-loop coefficient is an input array of every combine launch, which leaves it as entered, and no host
  operation in between writes it.
-/
import proofs.«130611_j3504693313558_2_alg».proof.Proof.Keep
import proofs.«130611_j3504693313558_2_alg».proof.Proof.Gen.ReferenceIdeal.Read
import proofs.«130611_j3504693313558_2_alg».proof.Proof.NetSpec
import proofs.«130611_j3504693313558_2_alg».proof.Proof.LibReshape
import proofs.«130611_j3504693313558_2_alg».proof.Proof.ChainB
import proofs.«130611_j3504693313558_2_alg».proof.Proof.Lin16b

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)
open Cert.KernelIdeal.RegionValue

/-! ## The self-loop coefficient through the second launch and the third -/

theorem W4_v27 : W4 m ρ c (Proc.devRef .tc main_v27) = val_main_v27 (F := Ideal) (m ((c : Thread nD τ).loc main_arg1)) (m ((c : Thread nD τ).loc main_arg3)) :=
  ((W4_arr m ρ c 1).trans (((dat1 (V3 m ρ) c).arrAt_in 1 rfl _).trans (A_eq1 (V3 m ρ) c 1))).trans (W3_v27 m ρ c)
theorem W5_v27 : W5 m ρ c (Proc.devRef .tc main_v27) = val_main_v27 (F := Ideal) (m ((c : Thread nD τ).loc main_arg1)) (m ((c : Thread nD τ).loc main_arg3)) :=
  (host2_keeps (W4 m ρ c) main_v27 (by decide)).trans (W4_v27 m ρ c)
theorem W6_v27 : W6 m ρ c (Proc.devRef .tc main_v27) = val_main_v27 (F := Ideal) (m ((c : Thread nD τ).loc main_arg1)) (m ((c : Thread nD τ).loc main_arg3)) :=
  (W6_of_ne m ρ c main_v27 (by decide)).trans (W5_v27 m ρ c)

/-! ## Boundaries 7 and 8: the second layer's aggregation and combine -/

theorem W7_v27 : W7 m ρ c (Proc.devRef .tc main_v27) = val_main_v27 (F := Ideal) (m ((c : Thread nD τ).loc main_arg1)) (m ((c : Thread nD τ).loc main_arg3)) :=
  (host3_keeps (W6 m ρ c) main_v27 (by decide)).trans (W6_v27 m ρ c)
theorem W7_v53 : W7 m ρ c (Proc.devRef .tc main_v53) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host3_keeps (W6 m ρ c) main_v53 (by decide)).trans (W6_v53 m ρ c)

set_option maxHeartbeats 4000000 in
/-- The layer's aggregation over the edges. -/
theorem W7_v66 : W7 m ρ c (Proc.devRef .tc main_v66) = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v66) = _
  simp only [hostOps3]
  after_results_simp
  rw [(W6_early m ρ c main_v3 ⟨by decide, by decide⟩).trans (W1_v3 m ρ c),
    (W6_early m ρ c main_v25 ⟨by decide, by decide⟩).trans (W1_v25 m ρ c),
    (W6_early m ρ c main_v1 ⟨by decide, by decide⟩).trans (W1_v1 m ρ c), W6_v53 m ρ c]
  rfl

/-- The layer's weight matrix. -/
theorem W7_v70 : W7 m ρ c (Proc.devRef .tc main_v70) = val_main_v85 (F := Ideal) (m ((c : Thread nD τ).loc main_arg7)) := by
  show StableHlo.after hostOps3 (W6 m ρ c) (Proc.devRef .tc main_v70) = _
  simp only [hostOps3]
  after_results_simp
  rw [(W6_arg m ρ c main_arg7 ⟨by decide, by decide, by decide⟩)]
  rfl

/-- The layer's bias row. -/
theorem W7_v73 : W7 m ρ c (Proc.devRef .tc main_v73) = val_main_v80 (F := Ideal) (m ((c : Thread nD τ).loc main_arg6)) := by
  show StableHlo.after hostOps3 (W6 m ρ c) (Proc.devRef .tc main_v73) = _
  simp only [hostOps3]
  after_results_simp
  rw [(W6_arg m ρ c main_arg6 ⟨by decide, by decide, by decide⟩)]
  exact (Cert.LibReshape.shapeCast_eq_row _ _ Cert.ReferenceIdeal.Gen.bcast_S16_S1x16_1).trans rfl

/-- The layer's second bias row. -/
theorem W7_v74 : W7 m ρ c (Proc.devRef .tc main_v74) = val_main_v89 (F := Ideal) (m ((c : Thread nD τ).loc main_arg8)) := by
  show StableHlo.after hostOps3 (W6 m ρ c) (Proc.devRef .tc main_v74) = _
  simp only [hostOps3]
  after_results_simp
  rw [(W6_arg m ρ c main_arg8 ⟨by decide, by decide, by decide⟩)]
  exact (Cert.LibReshape.shapeCast_eq_row _ _ Cert.ReferenceIdeal.Gen.bcast_S16_S1x16_1).trans rfl

set_option maxHeartbeats 4000000 in
/-- The layer's output features. -/
theorem W8_v75 : W8 m ρ c (Proc.devRef .tc main_v75) = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 6).trans ((region3_value (V7 m ρ) c).trans ?_)
  rw [show V7 m ρ c main_v66 = _ from W7_v66 m ρ c, show V7 m ρ c main_v27 = _ from W7_v27 m ρ c,
    show V7 m ρ c main_v53 = _ from W7_v53 m ρ c, show V7 m ρ c main_v73 = _ from W7_v73 m ρ c,
    show V7 m ρ c main_v70 = _ from W7_v70 m ρ c, show V7 m ρ c main_v74 = _ from W7_v74 m ρ c]
  rfl

/-! ## Boundaries 9 and 10: the third layer's weight matrix and linear map -/

theorem W8_v27 : W8 m ρ c (Proc.devRef .tc main_v27) = val_main_v27 (F := Ideal) (m ((c : Thread nD τ).loc main_arg1)) (m ((c : Thread nD τ).loc main_arg3)) :=
  ((W8_arr m ρ c 1).trans (((dat3 (V7 m ρ) c).arrAt_in 1 rfl _).trans (A_eq3 (V7 m ρ) c 1))).trans (W7_v27 m ρ c)
theorem W9_v27 : W9 m ρ c (Proc.devRef .tc main_v27) = val_main_v27 (F := Ideal) (m ((c : Thread nD τ).loc main_arg1)) (m ((c : Thread nD τ).loc main_arg3)) :=
  (host4_keeps (W8 m ρ c) main_v27 (by decide)).trans (W8_v27 m ρ c)
theorem W10_v27 : W10 m ρ c (Proc.devRef .tc main_v27) = val_main_v27 (F := Ideal) (m ((c : Thread nD τ).loc main_arg1)) (m ((c : Thread nD τ).loc main_arg3)) :=
  (W10_of_ne m ρ c main_v27 (by decide)).trans (W9_v27 m ρ c)

theorem W9_v75 : W9 m ρ c (Proc.devRef .tc main_v75) = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host4_keeps (W8 m ρ c) main_v75 (by decide)).trans (W8_v75 m ρ c)

theorem W9_v77 : W9 m ρ c (Proc.devRef .tc main_v77) = val_main_v93 (F := Ideal) (m ((c : Thread nD τ).loc main_arg5)) := by
  show StableHlo.after hostOps4 (W8 m ρ c) (Proc.devRef .tc main_v77) = _
  simp only [hostOps4]
  after_results_simp
  rw [(W8_arg m ρ c main_arg5 ⟨by decide, by decide, by decide⟩)]
  rfl

set_option maxHeartbeats 4000000 in
/-- The third layer's linear map of the second layer's features. -/
theorem W10_v78 : W10 m ρ c (Proc.devRef .tc main_v78) = val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((region4_value (V9 m ρ) c).trans ?_)
  rw [show V9 m ρ c main_v75 = _ from W9_v75 m ρ c, show V9 m ρ c main_v77 = _ from W9_v77 m ρ c]
  rfl

/-! ## Boundaries 11 and 12: the third layer's aggregation and combine -/

theorem W11_v27 : W11 m ρ c (Proc.devRef .tc main_v27) = val_main_v27 (F := Ideal) (m ((c : Thread nD τ).loc main_arg1)) (m ((c : Thread nD τ).loc main_arg3)) :=
  (host5_keeps (W10 m ρ c) main_v27 (by decide)).trans (W10_v27 m ρ c)
theorem W11_v78 : W11 m ρ c (Proc.devRef .tc main_v78) = val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host5_keeps (W10 m ρ c) main_v78 (by decide)).trans (W10_v78 m ρ c)

set_option maxHeartbeats 4000000 in
/-- The layer's aggregation over the edges. -/
theorem W11_v91 : W11 m ρ c (Proc.devRef .tc main_v91) = val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W10 m ρ c) (Proc.devRef .tc main_v91) = _
  simp only [hostOps5]
  after_results_simp
  rw [(W10_early m ρ c main_v3 ⟨by decide, by decide⟩).trans (W1_v3 m ρ c),
    (W10_early m ρ c main_v25 ⟨by decide, by decide⟩).trans (W1_v25 m ρ c),
    (W10_early m ρ c main_v1 ⟨by decide, by decide⟩).trans (W1_v1 m ρ c), W10_v78 m ρ c]
  rfl

/-- The layer's weight matrix. -/
theorem W11_v95 : W11 m ρ c (Proc.devRef .tc main_v95) = val_main_v118 (F := Ideal) (m ((c : Thread nD τ).loc main_arg7)) := by
  show StableHlo.after hostOps5 (W10 m ρ c) (Proc.devRef .tc main_v95) = _
  simp only [hostOps5]
  after_results_simp
  rw [(W10_arg m ρ c main_arg7 ⟨by decide, by decide, by decide⟩)]
  rfl

/-- The layer's bias row. -/
theorem W11_v98 : W11 m ρ c (Proc.devRef .tc main_v98) = val_main_v113 (F := Ideal) (m ((c : Thread nD τ).loc main_arg6)) := by
  show StableHlo.after hostOps5 (W10 m ρ c) (Proc.devRef .tc main_v98) = _
  simp only [hostOps5]
  after_results_simp
  rw [(W10_arg m ρ c main_arg6 ⟨by decide, by decide, by decide⟩)]
  exact (Cert.LibReshape.shapeCast_eq_row _ _ Cert.ReferenceIdeal.Gen.bcast_S16_S1x16_1).trans rfl

/-- The layer's second bias row. -/
theorem W11_v99 : W11 m ρ c (Proc.devRef .tc main_v99) = val_main_v122 (F := Ideal) (m ((c : Thread nD τ).loc main_arg8)) := by
  show StableHlo.after hostOps5 (W10 m ρ c) (Proc.devRef .tc main_v99) = _
  simp only [hostOps5]
  after_results_simp
  rw [(W10_arg m ρ c main_arg8 ⟨by decide, by decide, by decide⟩)]
  exact (Cert.LibReshape.shapeCast_eq_row _ _ Cert.ReferenceIdeal.Gen.bcast_S16_S1x16_1).trans rfl

set_option maxHeartbeats 4000000 in
/-- The layer's output features. -/
theorem W12_v100 : W12 m ρ c (Proc.devRef .tc main_v100) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 6).trans ((region5_value (V11 m ρ) c).trans ?_)
  rw [show V11 m ρ c main_v91 = _ from W11_v91 m ρ c, show V11 m ρ c main_v27 = _ from W11_v27 m ρ c,
    show V11 m ρ c main_v78 = _ from W11_v78 m ρ c, show V11 m ρ c main_v98 = _ from W11_v98 m ρ c,
    show V11 m ρ c main_v95 = _ from W11_v95 m ρ c, show V11 m ρ c main_v99 = _ from W11_v99 m ρ c]
  rfl

end Cert.KernelIdeal.Boundary

end
-- ==== Proof.Score.lean ====
/-
  The score step against the whole-array score. The node features h : [200000, 16] are cut into 100 row blocks of
  2000 rows; grid point t reads block t, multiplies every entry by the constant 0.2 and takes the exponential, and
  writes the result back as row block t of the output. The step is pointwise, so entry (r, j) of the output is
  exp(0.2 * h[r, j]) whichever block row r lies in -- exactly the entry of the one whole-array expression
  exp(0.2 * h). At the ideal instance the kernel's exponential and the host's are the same function of an extended
  real, and the constant is the same word on both sides (it is never evaluated).
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-- The two zero offsets of a whole-block access, spelt as a vector, are the zero function. -/
private theorem zero_off6 : (![0, 0] : Fin 2 → Nat) = fun _ => 0 := funext fun a => by fin_cases a <;> rfl

/-! ## One entry of a tile's score is the whole score's entry at the same place -/

/-- At every index the tile's payload and the whole-array score are the exponential of 0.2 times the entry: the
    kernel's splat of the constant and the host's broadcast of it are the same constant array, the kernel's
    exponential and the host's are one function of an extended real, and the identity cast changes nothing. -/
theorem score_tile_eq (h : FVec Ideal S200000x16 .f32) (x0 : FVec Ideal S2000x16 .f32) (y : S2000x16.Idx)
    (i : S200000x16.Idx) (hx0 : x0 y = h i) : k6_pay1 x0 y = Cert.NetSpec.score h i := by
  unfold k6_pay1 Cert.NetSpec.score
  simp only [shapeCast_self]
  rw [broadcastInDim_constant]
  show FloatOps.exp (FloatOps.mulf (Scalar.ofBits (F := Ideal) .f32 0x3E4CCCCD#32) (x0 y))
    = FloatOps.hostUnary .exp (FloatOps.mulf (Scalar.ofBits (F := Ideal) .f32 0x3E4CCCCD#32) (h i))
  rw [hx0]
  generalize Scalar.ofBits (F := Ideal) .f32 0x3E4CCCCD#32 = k
  rfl

/-! ## Region 6: the scores -/

/-- The printed index maps over the grid: the feature window and the score window sit at the same block. -/
theorem idx_facts6 : ∀ t : Fin cfg6.N, win6_0.index t (0 : Fin 2) = win6_1.index t (0 : Fin 2)
    ∧ win6_0.index t (1 : Fin 2) = win6_1.index t (1 : Fin 2) :=
  (by decide +kernel : ∀ t : Fin grid6.N, _)

/-- Every one of the 100 row blocks is some point's. -/
theorem idx_onto6 : ∀ q0 : Fin 100, ∃ t : Fin cfg6.N, win6_1.index t = ![q0.val, 0] :=
  (by decide +kernel : ∀ q0 : Fin 100, ∃ t : Fin grid6.N, win6_1.index t = ![q0.val, 0])

/-- What point `t` writes back is row block `t` of the whole-array score of the features the region finds. -/
theorem flushed6_eq (V : (c : Dev nD) → (b : Ref sig .tc) → Buf (Elt Ideal) ((c : Thread nD τ).loc b)) (c : Dev nD) (t : Fin cfg6.N) :
    (dat6 V c).flushed 1 t = ((cfg6.win 1).blk t).view.read (Elt Ideal) (Cert.NetSpec.score (V c main_v100)) := by
  show (cfg6.win 1).cut (grid6.coords t) ((dat6 V c).after 1 t) = _
  rw [after6_1]
  unfold out6_1
  rw [View.canon_unit_zero zero_off6]
  simp only [View.ld_unit_zero (S := S2000x16) zero_off6]
  obtain ⟨e0, e1⟩ := idx_facts6 t
  funext y
  refine score_tile_eq (V c main_v100) (iblk6 V c 0 t) y (((cfg6.win 1).blk t).view.emb y) ?_
  show V c main_v100 (((cfg6.win 0).blk t).view.emb y) = V c main_v100 (((cfg6.win 1).blk t).view.emb y)
  refine congrArg (V c main_v100) (funext fun a => Fin.ext ?_)
  match a with
  | ⟨0, _⟩ =>
    show win6_0.index t (0 : Fin 2) * 2000 + 1 * (y 0).val = win6_1.index t (0 : Fin 2) * 2000 + 1 * (y 0).val
    omega
  | ⟨1, _⟩ =>
    show win6_0.index t (1 : Fin 2) * 16 + 1 * (y 1).val = win6_1.index t (1 : Fin 2) * 16 + 1 * (y 1).val
    omega

/-- An index of the output is in point `t`'s block iff each coordinate is in the block's range on its axis. -/
theorem mem_blk6 (t : Fin cfg6.N) (i : S200000x16.Idx) :
    i ∈ ((cfg6.win 1).blk t).view.set ↔ ∀ a : Fin 2, win6_1.index t a * S2000x16.size a ≤ (i a).val ∧ (i a).val < win6_1.index t a * S2000x16.size a + S2000x16.size a := by
  show i ∈ ((View.whole main_v101).slice (win6_1.rect t)).set ↔ _
  rw [View.set_slice_whole, Rect.mem_set_unit]
  exact Iff.rfl

/-- Row `r` lies in the block of the point whose row block is `r / 2000`. -/
theorem cover6 (i : S200000x16.Idx) : ∃ t : Fin cfg6.N, (cfg6.win 1).flush t = true ∧ i ∈ ((cfg6.win 1).blk t).view.set := by
  have hi0 : (i 0).val < 200000 := (i 0).isLt
  have hi1 : (i 1).val < 16 := (i 1).isLt
  obtain ⟨t, ht⟩ := idx_onto6 ⟨(i 0).val / 2000, by omega⟩
  have q0 : win6_1.index t (0 : Fin 2) = (i 0).val / 2000 := congrFun ht 0
  have q1 : win6_1.index t (1 : Fin 2) = 0 := congrFun ht 1
  refine ⟨t, flush6_1 t, ?_⟩
  rw [mem_blk6]
  intro a
  match a with
  | ⟨0, _⟩ => show win6_1.index t (0 : Fin 2) * 2000 ≤ (i 0).val ∧ (i 0).val < win6_1.index t (0 : Fin 2) * 2000 + 2000; omega
  | ⟨1, _⟩ => show win6_1.index t (1 : Fin 2) * 16 ≤ (i 1).val ∧ (i 1).val < win6_1.index t (1 : Fin 2) * 16 + 16; omega

/-- REGION 6 as a whole: its output array ends at the exponential of 0.2 times the feature array it finds, entry by
    entry: every row lies in exactly one row block, and the block's point writes the scores of that block's rows. -/
theorem region6_value (V : (c : Dev nD) → (b : Ref sig .tc) → Buf (Elt Ideal) ((c : Thread nD τ).loc b)) (c : Dev nD) :
    (dat6 V c).arrAt 1 cfg6.N = Cert.NetSpec.score (V c main_v100) :=
  (dat6 V c).arrAt_eq_of_cover 1 _ (fun t _ => flushed6_eq V c t) cover6

end Cert.KernelIdeal.RegionValue

end
-- ==== Proof.Weight.lean ====
/-
  The weighting step against the whole-array expression. Three arrays of shape [200000, 16] -- the features h, the
  scores s and the gathered denominators d -- are cut into the same 100 row blocks of 2000 rows; grid point t reads
  block t of each, forms h * (s / d) entry by entry, and writes the result back as row block t of the output. The
  step is pointwise, so entry (r, j) of the output is h[r, j] * (s[r, j] / d[r, j]) whichever block row r lies in --
  exactly the entry of the one whole-array expression h * (s / d). At the ideal instance the kernel's division and
  the host's are the same function of two extended reals.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-- The two zero offsets of a whole-block access, spelt as a vector, are the zero function. -/
private theorem zero_off7 : (![0, 0] : Fin 2 → Nat) = fun _ => 0 := funext fun a => by fin_cases a <;> rfl

/-! ## One entry of a tile's result is the whole expression's entry at the same place -/

/-- At every index the tile's payload and the whole-array expression are the feature times the quotient of the score
    by the denominator: the kernel's division and the host's are one function of two extended reals, and the
    identity casts change nothing. -/
theorem weight_tile_eq (h s d : FVec Ideal S200000x16 .f32) (x0 x1 x2 : FVec Ideal S2000x16 .f32) (y : S2000x16.Idx)
    (i : S200000x16.Idx) (h0 : x0 y = h i) (h1 : x1 y = s i) (h2 : x2 y = d i) :
    k7_pay1 x0 x1 x2 y = Cert.NetSpec.weight h s d i := by
  unfold k7_pay1 Cert.NetSpec.weight
  simp only [shapeCast_self]
  show FloatOps.mulf (x0 y) (FloatOps.divf (x1 y) (x2 y)) = FloatOps.mulf (h i) (FloatOps.hostDivf (s i) (d i))
  rw [h0, h1, h2]
  rfl

/-! ## Region 7: the weighted features -/

/-- The printed index maps over the grid: the three input windows and the output window sit at the same block. -/
theorem idx_facts7 : ∀ t : Fin cfg7.N, win7_0.index t (0 : Fin 2) = win7_3.index t (0 : Fin 2)
    ∧ win7_0.index t (1 : Fin 2) = win7_3.index t (1 : Fin 2)
    ∧ win7_1.index t (0 : Fin 2) = win7_3.index t (0 : Fin 2)
    ∧ win7_1.index t (1 : Fin 2) = win7_3.index t (1 : Fin 2)
    ∧ win7_2.index t (0 : Fin 2) = win7_3.index t (0 : Fin 2)
    ∧ win7_2.index t (1 : Fin 2) = win7_3.index t (1 : Fin 2) :=
  (by decide +kernel : ∀ t : Fin grid7.N, _)

/-- Every one of the 100 row blocks is some point's. -/
theorem idx_onto7 : ∀ q0 : Fin 100, ∃ t : Fin cfg7.N, win7_3.index t = ![q0.val, 0] :=
  (by decide +kernel : ∀ q0 : Fin 100, ∃ t : Fin grid7.N, win7_3.index t = ![q0.val, 0])

/-- What point `t` writes back is row block `t` of the whole-array expression of the three arrays the region finds. -/
theorem flushed7_eq (V : (c : Dev nD) → (b : Ref sig .tc) → Buf (Elt Ideal) ((c : Thread nD τ).loc b)) (c : Dev nD) (t : Fin cfg7.N) :
    (dat7 V c).flushed 3 t = ((cfg7.win 3).blk t).view.read (Elt Ideal)
      (Cert.NetSpec.weight (V c main_v100) (V c main_v101) (V c main_v111)) := by
  show (cfg7.win 3).cut (grid7.coords t) ((dat7 V c).after 3 t) = _
  rw [after7_3]
  unfold out7_3
  rw [View.canon_unit_zero zero_off7]
  simp only [View.ld_unit_zero (S := S2000x16) zero_off7]
  obtain ⟨e0, e1, e2, e3, e4, e5⟩ := idx_facts7 t
  funext y
  refine weight_tile_eq (V c main_v100) (V c main_v101) (V c main_v111) (iblk7 V c 0 t) (iblk7 V c 1 t) (iblk7 V c 2 t)
    y (((cfg7.win 3).blk t).view.emb y) ?_ ?_ ?_
  · show V c main_v100 (((cfg7.win 0).blk t).view.emb y) = V c main_v100 (((cfg7.win 3).blk t).view.emb y)
    refine congrArg (V c main_v100) (funext fun a => Fin.ext ?_)
    match a with
    | ⟨0, _⟩ =>
      show win7_0.index t (0 : Fin 2) * 2000 + 1 * (y 0).val = win7_3.index t (0 : Fin 2) * 2000 + 1 * (y 0).val
      omega
    | ⟨1, _⟩ =>
      show win7_0.index t (1 : Fin 2) * 16 + 1 * (y 1).val = win7_3.index t (1 : Fin 2) * 16 + 1 * (y 1).val
      omega
  · show V c main_v101 (((cfg7.win 1).blk t).view.emb y) = V c main_v101 (((cfg7.win 3).blk t).view.emb y)
    refine congrArg (V c main_v101) (funext fun a => Fin.ext ?_)
    match a with
    | ⟨0, _⟩ =>
      show win7_1.index t (0 : Fin 2) * 2000 + 1 * (y 0).val = win7_3.index t (0 : Fin 2) * 2000 + 1 * (y 0).val
      omega
    | ⟨1, _⟩ =>
      show win7_1.index t (1 : Fin 2) * 16 + 1 * (y 1).val = win7_3.index t (1 : Fin 2) * 16 + 1 * (y 1).val
      omega
  · show V c main_v111 (((cfg7.win 2).blk t).view.emb y) = V c main_v111 (((cfg7.win 3).blk t).view.emb y)
    refine congrArg (V c main_v111) (funext fun a => Fin.ext ?_)
    match a with
    | ⟨0, _⟩ =>
      show win7_2.index t (0 : Fin 2) * 2000 + 1 * (y 0).val = win7_3.index t (0 : Fin 2) * 2000 + 1 * (y 0).val
      omega
    | ⟨1, _⟩ =>
      show win7_2.index t (1 : Fin 2) * 16 + 1 * (y 1).val = win7_3.index t (1 : Fin 2) * 16 + 1 * (y 1).val
      omega

/-- An index of the output is in point `t`'s block iff each coordinate is in the block's range on its axis. -/
theorem mem_blk7 (t : Fin cfg7.N) (i : S200000x16.Idx) :
    i ∈ ((cfg7.win 3).blk t).view.set ↔ ∀ a : Fin 2, win7_3.index t a * S2000x16.size a ≤ (i a).val ∧ (i a).val < win7_3.index t a * S2000x16.size a + S2000x16.size a := by
  show i ∈ ((View.whole main_v112).slice (win7_3.rect t)).set ↔ _
  rw [View.set_slice_whole, Rect.mem_set_unit]
  exact Iff.rfl

/-- Row `r` lies in the block of the point whose row block is `r / 2000`. -/
theorem cover7 (i : S200000x16.Idx) : ∃ t : Fin cfg7.N, (cfg7.win 3).flush t = true ∧ i ∈ ((cfg7.win 3).blk t).view.set := by
  have hi0 : (i 0).val < 200000 := (i 0).isLt
  have hi1 : (i 1).val < 16 := (i 1).isLt
  obtain ⟨t, ht⟩ := idx_onto7 ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 16 ≤ (i 1).val ∧ (i 1).val < win7_3.index t (1 : Fin 2) * 16 + 16; omega

/-- REGION 7 as a whole: its output array ends at the features times the quotient of the scores by the denominators,
    entry by entry, of the three arrays it finds: every row lies in exactly one row block, and the block's point
    writes that expression on the block's rows. -/
theorem region7_value (V : (c : Dev nD) → (b : Ref sig .tc) → Buf (Elt Ideal) ((c : Thread nD τ).loc b)) (c : Dev nD) :
    (dat7 V c).arrAt 3 cfg7.N = Cert.NetSpec.weight (V c main_v100) (V c main_v101) (V c main_v111) :=
  (dat7 V c).arrAt_eq_of_cover 3 _ (fun t _ => flushed7_eq V c t) cover7

end Cert.KernelIdeal.RegionValue

end
-- ==== Proof.Head.lean ====
/-
  The three-layer head against the whole-array expression. The head has ONE grid point, and every window's block
  at that point is its whole array: the pooled features p : [1024, 16], the weights w1, w2 : [16, 16] and
  w3 : [16, 1], and the bias rows b1, b2 : [1, 16] and b3 : [1, 1]. The point computes
      max(max(p . w1 + b1, 0) . w2 + b2, 0) . w3 + b3
  and writes the [1024, 1] result back as the whole output array. Each of the three layers is the same on both
  sides: at the ideal instance rounding the two operands before a product is the identity, a product accumulated
  into a zero array is the plain product (the sum over the 16 contracted entries), a bias row laid along every
  row is the same array however the laying is spelt, and the rectifier is the maximum with the same zero array.
-/
import proofs.«130611_j3504693313558_2_alg».proof.Proof.Gen.KernelIdeal.Frame
import proofs.«130611_j3504693313558_2_alg».proof.Proof.Gen.ReferenceIdeal
import proofs.«130611_j3504693313558_2_alg».proof.Proof.NetSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

/-- The two zero offsets of a whole-block access, spelt as a vector, are the zero function. -/
private theorem zero_off8 : (![0, 0] : Fin 2 → Nat) = fun _ => 0 := funext fun a => by fin_cases a <;> rfl

open Idealize.ShloMosaic.ValueIdx

/-! ## The dimension records of the products, on the two sides -/

/-- The product [1024,16] x [16,16], as the kernel names it. -/
abbrev Hk16 := dot_S1024x16_S16x16_S1024x16_1_0_0_1_n_n
/-- The same product, as the reference names it. -/
abbrev Hr16 := Cert.ReferenceIdeal.dot_S1024x16_S16x16_S1024x16_1_0_0_1_n_n
/-- The product [1024,16] x [16,1], as the kernel names it. -/
abbrev Hk1 := dot_S1024x16_S16x1_S1024x1_1_0_0_1_n_n
/-- The same product, as the reference names it. -/
abbrev Hr1 := Cert.ReferenceIdeal.dot_S1024x16_S16x1_S1024x1_1_0_0_1_n_n

/-- The two sides contract the same axes: one record of dimension numbers under two names. -/
theorem Hk16_eq : Hk16 = Hr16 := rfl
/-- The same for the product with the one-column matrix. -/
theorem Hk1_eq : Hk1 = Hr1 := rfl

/-! ## The pieces of a layer -/

/-- A product of rounded operands accumulated into the zero array is the plain product: at the ideal values the
    rounding is the identity and adding zero changes nothing. -/
theorem head_prod16_eq (hb : FTy.bits .bf16 < FTy.bits .f32) (x : FVec Ideal S1024x16 .f32) (w : FVec Ideal S16x16 .f32) :
    matmul Hk16 none (truncf .bf16 x hb) (truncf .bf16 w hb) (constant S1024x16 .f32 0x00000000#32)
      = Host.dotGeneral (F := Ideal) Hr16 none x w := by
  rw [matmul_zero_eq_dotGeneral, Hk16_eq]
  rfl

/-- The same for the product with the one-column matrix. -/
theorem head_prod1_eq (hb : FTy.bits .bf16 < FTy.bits .f32) (x : FVec Ideal S1024x16 .f32) (w : FVec Ideal S16x1 .f32) :
    matmul Hk1 none (truncf .bf16 x hb) (truncf .bf16 w hb) (constant S1024x1 .f32 0x00000000#32)
      = Host.dotGeneral (F := Ideal) Hr1 none x w := by
  rw [matmul_zero_eq_dotGeneral, Hk1_eq]
  rfl

/-- A one-row matrix laid down `m` rows by the trailing-axes rule, read at (r, t), is the row at (0, t). -/
theorem broadcastTo_oneRow_apply {α : Type} {m n : Nat} (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  fin_cases a
  · show (0 : ℕ) = if (1 : ℕ) = 1 then 0 else _
    simp
  · show t.val = if n = 1 then 0 else t.val
    split_ifs with hn
    · have := t.isLt; omega
    · rfl

/-- A one-row matrix laid along every row is one array, whether the laying is spelt by trailing axes or by naming
    the axes: both read the row at (0, t) at every (r, t). -/
theorem oneRow_broadcast_eq {α : Type} {m n : Nat} (hb : (⟨2, ![1, n]⟩ : Shape).Broadcasts ⟨2, ![m, n]⟩)
    (hd : (⟨2, ![1, n]⟩ : Shape).BroadcastsInDim ⟨2, ![m, n]⟩ ![0, 1]) (y : (⟨2, ![1, n]⟩ : Shape).Idx → α) :
    broadcastTo ⟨2, ![m, n]⟩ y hb = broadcastInDim ⟨2, ![m, n]⟩ ![0, 1] hd y := by
  funext j
  rw [eq_ix2 j]
  exact (broadcastTo_oneRow_apply hb y (j 0) (j 1)).trans (broadcastInDim_oneRow_apply hd y (j 0) (j 1)).symm

/-- The rectifier: the maximum with the zero array, the zero being the same constant however it is spread. -/
theorem head_relu_eq (v : FVec Ideal S1024x16 .f32) :
    maximumf v (broadcast S1024x16 (Scalar.ofBits (F := Ideal) .f32 0x00000000#32)) = Cert.NetSpec.relu1024 v := by
  unfold Cert.NetSpec.relu1024
  rw [broadcastInDim_constant]

/-! ## The layers, as whole arrays -/

/-- A hidden layer: product with a 16 x 16 matrix, bias row, rectifier -- the same [1024,16] array on both sides. -/
theorem head_hidden_eq (hb : FTy.bits .bf16 < FTy.bits .f32) (hbc : S1x16.Broadcasts S1024x16)
    (x : FVec Ideal S1024x16 .f32) (w : FVec Ideal S16x16 .f32) (b : FVec Ideal S1x16 .f32) :
    maximumf (addf (matmul Hk16 none (truncf .bf16 x hb) (truncf .bf16 w hb) (constant S1024x16 .f32 0x00000000#32))
        (broadcastTo S1024x16 b hbc)) (broadcast S1024x16 (Scalar.ofBits (F := Ideal) .f32 0x00000000#32))
      = Cert.NetSpec.relu1024 (addf (Host.dotGeneral (F := Ideal) Hr16 none x w)
          (broadcastInDim Cert.ReferenceIdeal.S1024x16 ![0, 1] Cert.ReferenceIdeal.Gen.bcast_S1x16_S1024x16_0_1 b)) := by
  rw [head_prod16_eq, oneRow_broadcast_eq hbc Cert.ReferenceIdeal.Gen.bcast_S1x16_S1024x16_0_1 b, head_relu_eq]

/-- The output layer: product with the 16 x 1 matrix and the bias -- the same [1024,1] array on both sides. -/
theorem head_out_eq (hb : FTy.bits .bf16 < FTy.bits .f32) (hbc : S1x1.Broadcasts S1024x1)
    (x : FVec Ideal S1024x16 .f32) (w : FVec Ideal S16x1 .f32) (b : FVec Ideal S1x1 .f32) :
    addf (matmul Hk1 none (truncf .bf16 x hb) (truncf .bf16 w hb) (constant S1024x1 .f32 0x00000000#32))
        (broadcastTo S1024x1 b hbc)
      = addf (Host.dotGeneral (F := Ideal) Hr1 none x w)
          (broadcastInDim Cert.ReferenceIdeal.S1024x1 ![0, 1] Cert.ReferenceIdeal.Gen.bcast_S1x1_S1024x1_0_1 b) := by
  rw [head_prod1_eq, oneRow_broadcast_eq hbc Cert.ReferenceIdeal.Gen.bcast_S1x1_S1024x1_0_1 b]

/-- The head's payload is the whole-array head of its seven operands: the two hidden layers, then the output layer;
    the identity casts change nothing. -/
theorem k8_pay1_eq (x0 : FVec Ideal S1024x16 .f32) (x1 : FVec Ideal S16x16 .f32) (x2 : FVec Ideal S1x16 .f32)
    (x3 : FVec Ideal S16x16 .f32) (x4 : FVec Ideal S1x16 .f32) (x5 : FVec Ideal S16x1 .f32) (x6 : FVec Ideal S1x1 .f32) :
    k8_pay1 x0 x1 x2 x3 x4 x5 x6 = Cert.NetSpec.mlp x0 x1 x2 x3 x4 x5 x6 := by
  unfold k8_pay1 Cert.NetSpec.mlp
  simp only [shapeCast_self]
  rw [head_hidden_eq, head_hidden_eq, head_out_eq]

/-- The same at an index, for blocks that are the whole arrays. -/
theorem mlp_tile_eq (p : FVec Ideal S1024x16 .f32) (w1 : FVec Ideal S16x16 .f32) (b1 : FVec Ideal S1x16 .f32)
    (w2 : FVec Ideal S16x16 .f32) (b2 : FVec Ideal S1x16 .f32) (w3 : FVec Ideal S16x1 .f32) (b3 : FVec Ideal S1x1 .f32)
    (x0 : FVec Ideal S1024x16 .f32) (x1 : FVec Ideal S16x16 .f32) (x2 : FVec Ideal S1x16 .f32)
    (x3 : FVec Ideal S16x16 .f32) (x4 : FVec Ideal S1x16 .f32) (x5 : FVec Ideal S16x1 .f32) (x6 : FVec Ideal S1x1 .f32)
    (y i : S1024x1.Idx) (h0 : x0 = p) (h1 : x1 = w1) (h2 : x2 = b1) (h3 : x3 = w2) (h4 : x4 = b2) (h5 : x5 = w3)
    (h6 : x6 = b3) (hi : i = y) :
    k8_pay1 x0 x1 x2 x3 x4 x5 x6 y = Cert.NetSpec.mlp p w1 b1 w2 b2 w3 b3 i := by
  subst h0 h1 h2 h3 h4 h5 h6 hi
  exact congrFun (k8_pay1_eq x0 x1 x2 x3 x4 x5 x6) i

/-! ## Region 8: the head -/

/-- The printed index maps at the one grid point: every window sits at its array's one block. -/
theorem idx_facts8 : ∀ t : Fin cfg8.N,
    (win8_0.index t (0 : Fin 2) = 0 ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0) :=
  (by decide +kernel : ∀ t : Fin grid8.N, _)

/-- There is a grid point, and the output window sits at the one block there. -/
theorem idx_onto8 : ∃ t : Fin cfg8.N, win8_7.index t = ![0, 0] :=
  (by decide +kernel : ∃ t : Fin grid8.N, win8_7.index t = ![0, 0])

/-- What the point writes back is the (one, whole) block of the whole-array head of the seven arrays the region finds. -/
theorem flushed8_eq (V : (c : Dev nD) → (b : Ref sig .tc) → Buf (Elt Ideal) ((c : Thread nD τ).loc b)) (c : Dev nD) (t : Fin cfg8.N) :
    (dat8 V c).flushed 7 t = ((cfg8.win 7).blk t).view.read (Elt Ideal)
      (Cert.NetSpec.mlp (V c main_v115) (V c main_arg9) (V c main_v116) (V c main_arg11) (V c main_v117) (V c main_arg13) (V c main_v118)) := by
  show (cfg8.win 7).cut (grid8.coords t) ((dat8 V c).after 7 t) = _
  rw [after8_7]
  unfold out8_7
  rw [View.canon_unit_zero zero_off8]
  simp only [View.ld_unit_zero (S := S1024x16) zero_off8, View.ld_unit_zero (S := S16x16) zero_off8,
    View.ld_unit_zero (S := S1x16) zero_off8, View.ld_unit_zero (S := S16x1) zero_off8, View.ld_unit_zero (S := S1x1) zero_off8]
  obtain ⟨⟨a0, a1⟩, ⟨b0, b1⟩, ⟨c0, c1⟩, ⟨d0, d1⟩, ⟨f0, f1⟩, ⟨g0, g1⟩, ⟨k0, k1⟩, ⟨o0, o1⟩⟩ := idx_facts8 t
  funext y
  refine mlp_tile_eq (V c main_v115) (V c main_arg9) (V c main_v116) (V c main_arg11) (V c main_v117) (V c main_arg13) (V c main_v118)
    (iblk8 V c 0 t) (iblk8 V c 1 t) (iblk8 V c 2 t) (iblk8 V c 3 t) (iblk8 V c 4 t) (iblk8 V c 5 t) (iblk8 V c 6 t)
    y (((cfg8.win 7).blk t).view.emb y) ?_ ?_ ?_ ?_ ?_ ?_ ?_ ?_
  · funext k
    show V c main_v115 (((cfg8.win 0).blk t).view.emb k) = V c main_v115 k
    refine congrArg (V c main_v115) (funext fun a => Fin.ext ?_)
    match a with
    | ⟨0, _⟩ => show win8_0.index t (0 : Fin 2) * 1024 + 1 * (k 0).val = (k 0).val; omega
    | ⟨1, _⟩ => show win8_0.index t (1 : Fin 2) * 16 + 1 * (k 1).val = (k 1).val; omega
  · funext k
    show V c main_arg9 (((cfg8.win 1).blk t).view.emb k) = V c main_arg9 k
    refine congrArg (V c main_arg9) (funext fun a => Fin.ext ?_)
    match a with
    | ⟨0, _⟩ => show win8_1.index t (0 : Fin 2) * 16 + 1 * (k 0).val = (k 0).val; omega
    | ⟨1, _⟩ => show win8_1.index t (1 : Fin 2) * 16 + 1 * (k 1).val = (k 1).val; omega
  · funext k
    show V c main_v116 (((cfg8.win 2).blk t).view.emb k) = V c main_v116 k
    refine congrArg (V c main_v116) (funext fun a => Fin.ext ?_)
    match a with
    | ⟨0, _⟩ => show win8_2.index t (0 : Fin 2) * 1 + 1 * (k 0).val = (k 0).val; omega
    | ⟨1, _⟩ => show win8_2.index t (1 : Fin 2) * 16 + 1 * (k 1).val = (k 1).val; omega
  · funext k
    show V c main_arg11 (((cfg8.win 3).blk t).view.emb k) = V c main_arg11 k
    refine congrArg (V c main_arg11) (funext fun a => Fin.ext ?_)
    match a with
    | ⟨0, _⟩ => show win8_3.index t (0 : Fin 2) * 16 + 1 * (k 0).val = (k 0).val; omega
    | ⟨1, _⟩ => show win8_3.index t (1 : Fin 2) * 16 + 1 * (k 1).val = (k 1).val; omega
  · funext k
    show V c main_v117 (((cfg8.win 4).blk t).view.emb k) = V c main_v117 k
    refine congrArg (V c main_v117) (funext fun a => Fin.ext ?_)
    match a with
    | ⟨0, _⟩ => show win8_4.index t (0 : Fin 2) * 1 + 1 * (k 0).val = (k 0).val; omega
    | ⟨1, _⟩ => show win8_4.index t (1 : Fin 2) * 16 + 1 * (k 1).val = (k 1).val; omega
  · funext k
    show V c main_arg13 (((cfg8.win 5).blk t).view.emb k) = V c main_arg13 k
    refine congrArg (V c main_arg13) (funext fun a => Fin.ext ?_)
    match a with
    | ⟨0, _⟩ => show win8_5.index t (0 : Fin 2) * 16 + 1 * (k 0).val = (k 0).val; omega
    | ⟨1, _⟩ => show win8_5.index t (1 : Fin 2) * 1 + 1 * (k 1).val = (k 1).val; omega
  · funext k
    show V c main_v118 (((cfg8.win 6).blk t).view.emb k) = V c main_v118 k
    refine congrArg (V c main_v118) (funext fun a => Fin.ext ?_)
    match a with
    | ⟨0, _⟩ => show win8_6.index t (0 : Fin 2) * 1 + 1 * (k 0).val = (k 0).val; omega
    | ⟨1, _⟩ => show win8_6.index t (1 : Fin 2) * 1 + 1 * (k 1).val = (k 1).val; omega
  · refine funext fun a => Fin.ext ?_
    match a with
    | ⟨0, _⟩ => show win8_7.index t (0 : Fin 2) * 1024 + 1 * (y 0).val = (y 0).val; omega
    | ⟨1, _⟩ => show win8_7.index t (1 : Fin 2) * 1 + 1 * (y 1).val = (y 1).val; omega

/-- An index of the output is in point `t`'s block iff each coordinate is in the block's range on its axis. -/
theorem mem_blk8 (t : Fin cfg8.N) (i : S1024x1.Idx) :
    i ∈ ((cfg8.win 7).blk t).view.set ↔ ∀ a : Fin 2, win8_7.index t a * S1024x1.size a ≤ (i a).val ∧ (i a).val < win8_7.index t a * S1024x1.size a + S1024x1.size a := by
  show i ∈ ((View.whole main_v119).slice (win8_7.rect t)).set ↔ _
  rw [View.set_slice_whole, Rect.mem_set_unit]
  exact Iff.rfl

/-- Every index of the output lies in the one block there is. -/
theorem cover8 (i : S1024x1.Idx) : ∃ t : Fin cfg8.N, (cfg8.win 7).flush t = true ∧ i ∈ ((cfg8.win 7).blk t).view.set := by
  have hi0 : (i 0).val < 1024 := (i 0).isLt
  have hi1 : (i 1).val < 1 := (i 1).isLt
  obtain ⟨t, ht⟩ := idx_onto8
  have q0 : win8_7.index t (0 : Fin 2) = 0 := congrFun ht 0
  have q1 : win8_7.index t (1 : Fin 2) = 0 := congrFun ht 1
  refine ⟨t, flush8_7 t, ?_⟩
  rw [mem_blk8]
  intro a
  match a with
  | ⟨0, _⟩ => show win8_7.index t (0 : Fin 2) * 1024 ≤ (i 0).val ∧ (i 0).val < win8_7.index t (0 : Fin 2) * 1024 + 1024; omega
  | ⟨1, _⟩ => show win8_7.index t (1 : Fin 2) * 1 ≤ (i 1).val ∧ (i 1).val < win8_7.index t (1 : Fin 2) * 1 + 1; omega

/-- REGION 8 as a whole: its output array ends at the three-layer head of the seven arrays it finds: the one grid
    point reads every array whole, computes the head, and its one block is the whole output. -/
theorem region8_value (V : (c : Dev nD) → (b : Ref sig .tc) → Buf (Elt Ideal) ((c : Thread nD τ).loc b)) (c : Dev nD) :
    (dat8 V c).arrAt 7 cfg8.N = Cert.NetSpec.mlp (V c main_v115) (V c main_arg9) (V c main_v116) (V c main_arg11)
      (V c main_v117) (V c main_arg13) (V c main_v118) :=
  (dat8 V c).arrAt_eq_of_cover 7 _ (fun t _ => flushed8_eq V c t) cover8

end Cert.KernelIdeal.RegionValue

end
-- ==== Proof.ChainD.lean ====
/-
  Boundaries 13 to 17: attention pooling and the head. From the third layer's features h: the score launch leaves
  exp(0.2 * h); the host sums the scores per graph (a scatter-add by the batch vector) and gathers each node's
  denominator back; the weight launch leaves h * (score / denominator); the host sums that per graph, and hands the
  head its three bias vectors as rows ([1,16], [1,16], [1,1] reshapes, which are the reference's broadcasts of the
  same values along a new leading axis); the head launch applies the three-layer perceptron. Each is the
  reference's stage of the same name, so the result buffer ends at the reference's result as a function of the
  fifteen arguments.
-/
import proofs.«130611_j3504693313558_2_alg».proof.Proof.Keep
import proofs.«130611_j3504693313558_2_alg».proof.Proof.Gen.ReferenceIdeal.Read
import proofs.«130611_j3504693313558_2_alg».proof.Proof.NetSpec
import proofs.«130611_j3504693313558_2_alg».proof.Proof.LibReshape
import proofs.«130611_j3504693313558_2_alg».proof.Proof.Score
import proofs.«130611_j3504693313558_2_alg».proof.Proof.Weight
import proofs.«130611_j3504693313558_2_alg».proof.Proof.Head

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)
open Cert.KernelIdeal.RegionValue

section
-- what the sixth launch left: the third layer's features
variable (h12 : W12 m ρ c (Proc.devRef .tc main_v100) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include h12

/-! ## Boundary 13: after the score launch -/

theorem W13_v100 : W13 m ρ c (Proc.devRef .tc main_v100) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W13_arr m ρ c 0).trans (((dat6 (V12 m ρ) c).arrAt_in 0 rfl _).trans (A_eq6 (V12 m ρ) c 0))).trans h12

set_option maxHeartbeats 4000000 in
/-- The scores. -/
theorem W13_v101 : W13 m ρ c (Proc.devRef .tc main_v101) = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 1).trans ((region6_value (V12 m ρ) c).trans ?_)
  rw [show V12 m ρ c main_v100 = _ from h12]
  rfl

/-! ## Boundary 14: after the denominators -/

theorem W14_v100 : W14 m ρ c (Proc.devRef .tc main_v100) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host7_keeps (W13 m ρ c) main_v100 (by decide)).trans (W13_v100 m ρ c h12)
theorem W14_v101 : W14 m ρ c (Proc.devRef .tc main_v101) = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host7_keeps (W13 m ρ c) main_v101 (by decide)).trans (W13_v101 m ρ c h12)

set_option maxHeartbeats 4000000 in
/-- Each node's denominator: the per-graph sum of the scores, gathered back by the batch vector. -/
theorem W14_v111 : W14 m ρ c (Proc.devRef .tc main_v111) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W13 m ρ c) (Proc.devRef .tc main_v111) = _
  simp only [hostOps7]
  after_results_simp
  rw [W13_v101 m ρ c h12, (W13_arg m ρ c main_arg2 ⟨by decide, by decide, by decide⟩)]
  rfl

/-! ## Boundary 15: after the weight launch -/

set_option maxHeartbeats 4000000 in
/-- The attention-weighted features. -/
theorem W15_v112 : W15 m ρ c (Proc.devRef .tc main_v112) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W15_arr m ρ c 3).trans ((region7_value (V14 m ρ) c).trans ?_)
  rw [show V14 m ρ c main_v100 = _ from W14_v100 m ρ c h12, show V14 m ρ c main_v101 = _ from W14_v101 m ρ c h12,
    show V14 m ρ c main_v111 = _ from W14_v111 m ρ c h12]
  rfl

/-! ## Boundary 16: after the pooling stretch -/

set_option maxHeartbeats 4000000 in
/-- The pooled features: the per-graph sum of the weighted features. -/
theorem W16_v115 : W16 m ρ c (Proc.devRef .tc main_v115) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps8 (W15 m ρ c) (Proc.devRef .tc main_v115) = _
  simp only [hostOps8]
  after_results_simp
  rw [W15_v112 m ρ c h12, (W15_arg m ρ c main_arg2 ⟨by decide, by decide, by decide⟩)]
  rfl

omit h12 in
/-- The head's first bias row. -/
theorem W16_v116 : W16 m ρ c (Proc.devRef .tc main_v116) = val_main_v144 (F := Ideal) (m ((c : Thread nD τ).loc main_arg10)) := by
  show StableHlo.after hostOps8 (W15 m ρ c) (Proc.devRef .tc main_v116) = _
  simp only [hostOps8]
  after_results_simp
  rw [(W15_arg m ρ c main_arg10 ⟨by decide, by decide, by decide⟩)]
  exact (Cert.LibReshape.shapeCast_eq_row _ _ Cert.ReferenceIdeal.Gen.bcast_S16_S1x16_1).trans rfl

omit h12 in
/-- The head's second bias row. -/
theorem W16_v117 : W16 m ρ c (Proc.devRef .tc main_v117) = val_main_v149 (F := Ideal) (m ((c : Thread nD τ).loc main_arg12)) := by
  show StableHlo.after hostOps8 (W15 m ρ c) (Proc.devRef .tc main_v117) = _
  simp only [hostOps8]
  after_results_simp
  rw [(W15_arg m ρ c main_arg12 ⟨by decide, by decide, by decide⟩)]
  exact (Cert.LibReshape.shapeCast_eq_row _ _ Cert.ReferenceIdeal.Gen.bcast_S16_S1x16_1).trans rfl

omit h12 in
/-- The head's last bias, one value as a [1,1] array. -/
theorem W16_v118 : W16 m ρ c (Proc.devRef .tc main_v118) = val_main_v154 (F := Ideal) (m ((c : Thread nD τ).loc main_arg14)) := by
  show StableHlo.after hostOps8 (W15 m ρ c) (Proc.devRef .tc main_v118) = _
  simp only [hostOps8]
  after_results_simp
  rw [(W15_arg m ρ c main_arg14 ⟨by decide, by decide, by decide⟩)]
  exact (Cert.LibReshape.shapeCast_eq_row _ _ Cert.ReferenceIdeal.Gen.bcast_S1_S1x1_1).trans rfl

/-! ## Boundary 17: after the head -/

set_option maxHeartbeats 8000000 in
/-- THE RESULT: the kernel's result buffer ends at the reference's result as a function of the fifteen arguments. -/
theorem W17_v119 : W17 m ρ c (Proc.devRef .tc main_v119) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W17_arr m ρ c 7).trans ((region8_value (V16 m ρ) c).trans ?_)
  rw [show V16 m ρ c main_v115 = _ from W16_v115 m ρ c h12,
    show V16 m ρ c main_arg9 = _ from (W16_arg m ρ c main_arg9 ⟨by decide, by decide, by decide⟩),
    show V16 m ρ c main_v116 = _ from W16_v116 m ρ c,
    show V16 m ρ c main_arg11 = _ from (W16_arg m ρ c main_arg11 ⟨by decide, by decide, by decide⟩),
    show V16 m ρ c main_v117 = _ from W16_v117 m ρ c,
    show V16 m ρ c main_arg13 = _ from (W16_arg m ρ c main_arg13 ⟨by decide, by decide, by decide⟩),
    show V16 m ρ c main_v118 = _ from W16_v118 m ρ c]
  rfl

end

end Cert.KernelIdeal.Boundary

end
-- ==== Proof.lean ====
/-
  A three-layer graph network on 200000 nodes and 3200000 weighted edges, pooled per graph by attention and fed to
  a small perceptron: the kernel's program runs the dense steps as nine tiled kernel launches and everything that
  moves data along edges or graphs (gathers, scatter-adds, slices of the stacked weights) as the same host
  operations the plain reference uses; the reference is those operations and plain dot products.

  At the ideal instance (every float an extended real, every operation exact, a change of float format the
  identity) the two programs compute the same function of the fifteen arguments, step for step:
    * a launch that multiplies 100 row blocks of the node features by a whole weight matrix writes the rows of the
      one whole product, because each output row lies in exactly one block and is a sum along that row;
    * the combine launches add the aggregation, the self term and a bias row, rectify, multiply by the layer's
      matrix and add its bias row, block by block, which is the reference's whole-array expression row by row;
    * the score and weight launches are pointwise, exp(0.2 h) and h (s / d), the literal 0.2 the same word on both sides;
    * the head is one block: three dot products with bias rows and rectifiers, the reference's own;
    * between the launches both programs apply the SAME host operations to equal operands, so equal results; the
      only difference in spelling is a bias vector handed to a launch as a [1,n] reshape where the reference
      broadcasts it along a new leading axis, which is the same array.
  No algebraic law beyond these identifications is needed, so the precondition (finite inputs) is never opened:
  out-of-range edge or batch indices are treated by the shared host operations identically on both sides.

  The kernel's value is read off its run through its seventeen boundaries (launch memory, host stretch, launch,
  ..., head): the result buffer ends at the last boundary's contents, which the chain of boundary lemmas equates
  with the reference's stages one boundary at a time; the reference's run gives its result as its last stage.
  The three frames are the generated frame proofs (the reference's is its run with the result dropped); the
  idealization rewrote nothing, so its preservation claim is trivial.
-/
import proofs.«130611_j3504693313558_2_alg».proof.Defs
import proofs.«130611_j3504693313558_2_alg».proof.Proof.Gen.Kernel
import proofs.«130611_j3504693313558_2_alg».proof.Proof.Gen.Kernel.Skeleton
import proofs.«130611_j3504693313558_2_alg».proof.Proof.Gen.Kernel.Launch
import proofs.«130611_j3504693313558_2_alg».proof.Proof.Gen.Kernel.Points
import proofs.«130611_j3504693313558_2_alg».proof.Proof.Gen.Kernel.Frame
import proofs.«130611_j3504693313558_2_alg».proof.Proof.Gen.KernelIdeal
import proofs.«130611_j3504693313558_2_alg».proof.Proof.Gen.KernelIdeal.Skeleton
import proofs.«130611_j3504693313558_2_alg».proof.Proof.Gen.KernelIdeal.Launch
import proofs.«130611_j3504693313558_2_alg».proof.Proof.Gen.KernelIdeal.Points
import proofs.«130611_j3504693313558_2_alg».proof.Proof.Gen.KernelIdeal.Frame
import proofs.«130611_j3504693313558_2_alg».proof.Proof.Gen.ReferenceIdeal
import proofs.«130611_j3504693313558_2_alg».proof.Proof.Gen.Pre_finite_inputs
import proofs.«130611_j3504693313558_2_alg».proof.Proof.Gen.ReferenceIdeal.Run
import proofs.«130611_j3504693313558_2_alg».proof.Proof.Gen.ReferenceIdeal.Read
import proofs.«130611_j3504693313558_2_alg».proof.Proof.RunValue
import proofs.«130611_j3504693313558_2_alg».proof.Proof.ChainC
import proofs.«130611_j3504693313558_2_alg».proof.Proof.ChainD
import Idealize.ShloMosaic.Adequacy
import Idealize.ShloMosaic.Init

set_option maxRecDepth 16384

noncomputable section

namespace Cert.Proof

open Idealize.ShloMosaic Idealize.ShloMosaic.TcCoe Idealize.SL.Sem

/-- The word-level kernel's program runs and leaves its arguments unchanged. -/
theorem frame_k : Cert.frame_Kernel := fun m ρ _ => Cert.Kernel.Gen.frame m ρ

/-- So does the idealized kernel's program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- From memories that agree on the fifteen arguments both idealized programs run, and both end with the
    reference's last stage of those arguments in their result buffer. -/
theorem algebraic : Cert.algebraic_KernelIdeal_ReferenceIdeal := by
  intro m ρ m' ρ' _ hagree
  refine ⟨fun c => Cert.ReferenceIdeal.Read.val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨(h c).1.trans ?_, (h c).2⟩)
      (Cert.KernelIdeal.RunValue.run_result (F := Ideal) m ρ)
    exact Cert.KernelIdeal.Boundary.W17_v119 m ρ c (Cert.KernelIdeal.Boundary.W12_v100 m ρ c)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v156_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
